-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S192x64 : Shape := ⟨2, ![192, 64]⟩
abbrev S64 : Shape := ⟨1, ![64]⟩
abbrev S64x64 : Shape := ⟨2, ![64, 64]⟩
abbrev S9x64 : Shape := ⟨2, ![9, 64]⟩
abbrev S50000x64 : Shape := ⟨2, ![50000, 64]⟩
abbrev S500000x64 : Shape := ⟨2, ![500000, 64]⟩
abbrev S500000x9 : Shape := ⟨2, ![500000, 9]⟩
abbrev S500000 : Shape := ⟨1, ![500000]⟩
abbrev S_ : Shape := ⟨0, ![]⟩

class Facts : Prop where
  bcast_S_S192x64 : S_.BroadcastsInDim S192x64 (![] : Fin 0 → Fin S192x64.rank)
  reducesTo_S192x64_S_d0_1 : S192x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S9x64 : S_.BroadcastsInDim S9x64 (![] : Fin 0 → Fin S9x64.rank)
  reducesTo_S9x64_S_d0_1 : S9x64.ReducesTo [0, 1] S_
  bcast_S_S50000x64 : S_.BroadcastsInDim S50000x64 (![] : Fin 0 → Fin S50000x64.rank)
  reducesTo_S50000x64_S_d0_1 : S50000x64.ReducesTo [0, 1] S_
  bcast_S_S500000x64 : S_.BroadcastsInDim S500000x64 (![] : Fin 0 → Fin S500000x64.rank)
  reducesTo_S500000x64_S_d0_1 : S500000x64.ReducesTo [0, 1] S_
  bcast_S_S500000x9 : S_.BroadcastsInDim S500000x9 (![] : Fin 0 → Fin S500000x9.rank)
  reducesTo_S500000x9_S_d0_1 : S500000x9.ReducesTo [0, 1] S_

variable [Facts]

def fn_part6 {F : FTy → Type} [FloatOps F] (main_v98 : IVec S_ 1) (main_v101 : IVec S500000x9 1) (main_c_39 : IVec S_ 1) : IVec S_ 1 :=
  let main_v102 : IVec S_ 1 := (fun x v => Host.reduce IntOp.andi x v reducesTo_S500000x9_S_d0_1 h_S_) main_v101 main_c_39
  let main_v103 : IVec S_ 1 := andi main_v98 main_v102
  main_v103

def fn_part5 {F : FTy → Type} [FloatOps F] (main_arg18 : FVec F S50000x64 .f32) (main_arg19 : FVec F S500000x64 .f32) (main_arg20 : FVec F S500000x9 .f32) (main_v83 : IVec S_ 1) (main_v84 : FVec F S9x64 .f32) (main_cst_32 : FVec F S_ .f32) : IVec S_ 1 :=
  let main_v85 : FVec F S9x64 .f32 := broadcastInDim S9x64 ![] bcast_S_S9x64 main_cst_32
  let main_v86 : IVec S9x64 1 := cmpf .olt main_v84 main_v85
  let main_c_33 : IVec S_ 1 := constantI S_ 1 1#1
  let main_v87 : IVec S_ 1 := (fun x v => Host.reduce IntOp.andi x v reducesTo_S9x64_S_d0_1 h_S_) main_v86 main_c_33
  let main_v88 : IVec S_ 1 := andi main_v83 main_v87
  let main_v89 : FVec F S50000x64 .f32 := Host.absf main_arg18
  let main_cst_34 : FVec F S_ .f32 := constant S_ .f32 0x7F800000#32
  let main_v90 : FVec F S50000x64 .f32 := broadcastInDim S50000x64 ![] bcast_S_S50000x64 main_cst_34
  let main_v91 : IVec S50000x64 1 := cmpf .olt main_v89 main_v90
  let main_c_35 : IVec S_ 1 := constantI S_ 1 1#1
  let main_v92 : IVec S_ 1 := (fun x v => Host.reduce IntOp.andi x v reducesTo_S50000x64_S_d0_1 h_S_) main_v91 main_c_35
  let main_v93 : IVec S_ 1 := andi main_v88 main_v92
  let main_v94 : FVec F S500000x64 .f32 := Host.absf main_arg19
  let main_cst_36 : FVec F S_ .f32 := constant S_ .f32 0x7F800000#32
  let main_v95 : FVec F S500000x64 .f32 := broadcastInDim S500000x64 ![] bcast_S_S500000x64 main_cst_36
  let main_v96 : IVec S500000x64 1 := cmpf .olt main_v94 main_v95
  let main_c_37 : IVec S_ 1 := constantI S_ 1 1#1
  let main_v97 : IVec S_ 1 := (fun x v => Host.reduce IntOp.andi x v reducesTo_S500000x64_S_d0_1 h_S_) main_v96 main_c_37
  let main_v98 : IVec S_ 1 := andi main_v93 main_v97
  let main_v99 : FVec F S500000x9 .f32 := Host.absf main_arg20
  let main_cst_38 : FVec F S_ .f32 := constant S_ .f32 0x7F800000#32
  let main_v100 : FVec F S500000x9 .f32 := broadcastInDim S500000x9 ![] bcast_S_S500000x9 main_cst_38
  let main_v101 : IVec S500000x9 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S9x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x64 .f32 := Host.absf main_arg13
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64 .f32) (main_arg8 : FVec F S9x64 .f32) (main_arg9 : FVec F S192x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S9x64 .f32 := Host.absf main_arg8
  let main_cst_14 : FVec F S_ .f32 := constant S_ .f32 0x7F800000#32
  let main_v40 : FVec F S9x64 .f32 := broadcastInDim S9x64 ![] bcast_S_S9x64 main_cst_14
  let main_v41 : IVec S9x64 1 := cmpf .olt main_v39 main_v40
  let main_c_15 : IVec S_ 1 := constantI S_ 1 1#1
  let main_v42 : IVec S_ 1 := (fun x v => Host.reduce IntOp.andi x v reducesTo_S9x64_S_d0_1 h_S_) main_v41 main_c_15
  let main_v43 : IVec S_ 1 := andi main_v38 main_v42
  let main_v44 : FVec F S192x64 .f32 := Host.absf main_arg9
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S192x64 .f32) (main_arg5 : FVec F S64 .f32) (main_arg6 : FVec F S64x64 .f32) (main_arg7 : FVec F S64 .f32) (main_arg8 : FVec F S9x64 .f32) (main_arg9 : FVec F S192x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S192x64 .f32) (main_arg1 : FVec F S64 .f32) (main_arg2 : FVec F S64x64 .f32) (main_arg3 : FVec F S64 .f32) (main_arg4 : FVec F S192x64 .f32) (main_arg5 : FVec F S64 .f32) (main_arg6 : FVec F S64x64 .f32) (main_arg7 : FVec F S64 .f32) (main_arg8 : FVec F S9x64 .f32) (main_arg9 : FVec F S192x64 .f32) (main_arg10 : FVec F S64 .f32) (main_arg11 : FVec F S64x64 .f32) (main_arg12 : FVec F S64 .f32) (main_arg13 : FVec F S192x64 .f32) (main_arg14 : FVec F S64 .f32) (main_arg15 : FVec F S64x64 .f32) (main_arg16 : FVec F S64 .f32) (main_arg17 : FVec F S9x64 .f32) (main_arg18 : FVec F S50000x64 .f32) (main_arg19 : FVec F S500000x64 .f32) (main_arg20 : FVec F S500000x9 .f32) (main_arg21 : IVec S500000 32) (main_arg22 : IVec S500000 32) : IVec S_ 1 :=
  let main_v0 : FVec F S192x64 .f32 := Host.absf main_arg0
  let main_cst : FVec F S_ .f32 := constant S_ .f32 0x7F800000#32
  let main_v1 : FVec F S192x64 .f32 := broadcastInDim S192x64 ![] bcast_S_S192x64 main_cst
  let main_v2 : IVec S192x64 1 := cmpf .olt main_v0 main_v1
  let main_c : IVec S_ 1 := constantI S_ 1 1#1
  let main_v3 : IVec S_ 1 := (fun x v => Host.reduce IntOp.andi x v reducesTo_S192x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S192x64 : Shape := ⟨2, ![192, 64]⟩
abbrev S64 : Shape := ⟨1, ![64]⟩
abbrev S64x64 : Shape := ⟨2, ![64, 64]⟩
abbrev S9x64 : Shape := ⟨2, ![9, 64]⟩
abbrev S50000x64 : Shape := ⟨2, ![50000, 64]⟩
abbrev S500000x64 : Shape := ⟨2, ![500000, 64]⟩
abbrev S500000x9 : Shape := ⟨2, ![500000, 9]⟩
abbrev S500000 : Shape := ⟨1, ![500000]⟩
abbrev S_ : Shape := ⟨0, ![]⟩
abbrev S500000x1 : Shape := ⟨2, ![500000, 1]⟩
abbrev S1x64 : Shape := ⟨2, ![1, 64]⟩
abbrev S500000x128 : Shape := ⟨2, ![500000, 128]⟩
abbrev S4000x64 : Shape := ⟨2, ![4000, 64]⟩
abbrev S4000x9 : Shape := ⟨2, ![4000, 9]⟩
abbrev S4000x128 : Shape := ⟨2, ![4000, 128]⟩

abbrev nBuf : Space → Nat
  | .hbm => 67
  | .vmem => 28
  | .smem => 0
  | _ => 0

abbrev bufTy : (tb : Table) → Fin (tcTables nBuf tb) → BufTy
  | .hbm, ⟨0, _⟩ => ⟨S192x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S9x64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S192x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S9x64, .f32⟩
  | .hbm, ⟨18, _⟩ => ⟨S50000x64, .f32⟩
  | .hbm, ⟨19, _⟩ => ⟨S500000x64, .f32⟩
  | .hbm, ⟨20, _⟩ => ⟨S500000x9, .f32⟩
  | .hbm, ⟨21, _⟩ => ⟨S500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x64, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x64, .f32⟩
  | .hbm, ⟨41, _⟩ => ⟨S192x64, .bf16⟩
  | .hbm, ⟨42, _⟩ => ⟨S64x64, .bf16⟩
  | .hbm, ⟨43, _⟩ => ⟨S192x64, .bf16⟩
  | .hbm, ⟨44, _⟩ => ⟨S64x64, .bf16⟩
  | .hbm, ⟨45, _⟩ => ⟨S9x64, .bf16⟩
  | .hbm, ⟨46, _⟩ => ⟨S192x64, .bf16⟩
  | .hbm, ⟨47, _⟩ => ⟨S64x64, .bf16⟩
  | .hbm, ⟨48, _⟩ => ⟨S192x64, .bf16⟩
  | .hbm, ⟨49, _⟩ => ⟨S64x64, .bf16⟩
  | .hbm, ⟨50, _⟩ => ⟨S9x64, .bf16⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S500000x128, .f32⟩
  | .hbm, ⟨60, _⟩ => ⟨S500000x64, .f32⟩
  | .hbm, ⟨61, _⟩ => ⟨S500000x64, .f32⟩
  | .hbm, ⟨62, _⟩ => ⟨S_, .f32⟩
  | .hbm, ⟨63, _⟩ => ⟨S50000x64, .f32⟩
  | .hbm, ⟨64, _⟩ => ⟨S500000x1, .i32⟩
  | .hbm, ⟨65, _⟩ => ⟨S50000x64, .f32⟩
  | .hbm, ⟨66, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x9, .f32⟩
  | .local _ .vmem, ⟨7, _⟩ => ⟨S4000x9, .f32⟩
  | .local _ .vmem, ⟨8, _⟩ => ⟨S192x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S192x64, .bf16⟩
  | .local _ .vmem, ⟨13, _⟩ => ⟨S1x64, .f32⟩
  | .local _ .vmem, ⟨14, _⟩ => ⟨S64x64, .bf16⟩
  | .local _ .vmem, ⟨15, _⟩ => ⟨S1x64, .f32⟩
  | .local _ .vmem, ⟨16, _⟩ => ⟨S9x64, .bf16⟩
  | .local _ .vmem, ⟨17, _⟩ => ⟨S192x64, .bf16⟩
  | .local _ .vmem, ⟨18, _⟩ => ⟨S1x64, .f32⟩
  | .local _ .vmem, ⟨19, _⟩ => ⟨S64x64, .bf16⟩
  | .local _ .vmem, ⟨20, _⟩ => ⟨S1x64, .f32⟩
  | .local _ .vmem, ⟨21, _⟩ => ⟨S192x64, .bf16⟩
  | .local _ .vmem, ⟨22, _⟩ => ⟨S1x64, .f32⟩
  | .local _ .vmem, ⟨23, _⟩ => ⟨S64x64, .bf16⟩
  | .local _ .vmem, ⟨24, _⟩ => ⟨S1x64, .f32⟩
  | .local _ .vmem, ⟨25, _⟩ => ⟨S9x64, .bf16⟩
  | .local _ .vmem, ⟨26, _⟩ => ⟨S4000x128, .f32⟩
  | .local _ .vmem, ⟨27, _⟩ => ⟨S4000x128, .f32⟩
  | _, _ => ⟨S192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S192x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S9x64 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S4000x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bitsLt_bf16_f32 : FTy.bits .bf16 < FTy.bits .f32
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x9_S4000x9_0_0 : ∀ a, (![0, 0] : Fin 2 → Nat) a + S4000x9.size a ≤ S4000x9.size a
  h_S4000x9 : 0 < S4000x9.numel
  inb_S192x64_S192x64_0_0 : ∀ a, (![0, 0] : Fin 2 → Nat) a + S192x64.size a ≤ S192x64.size a
  h_S192x64 : 0 < S192x64.numel
  shapeCasts_S192x64_S192x64 : S192x64.ShapeCasts S192x64
  slices_S192x64_o0_0_S64x64 : S192x64.Slices ![0, 0] S64x64
  slices_S192x64_o64_0_S64x64 : S192x64.Slices ![64, 0] S64x64
  slices_S192x64_o128_0_S64x64 : S192x64.Slices ![128, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S9x64_S9x64_0_0 : ∀ a, (![0, 0] : Fin 2 → Nat) a + S9x64.size a ≤ S9x64.size a
  h_S9x64 : 0 < S9x64.numel
  shapeCasts_S9x64_S9x64 : S9x64.ShapeCasts S9x64
  concatenates_S4000x64_S4000x64_S4000x128_d1 : Shape.Concatenates [S4000x64, S4000x64] S4000x128 1
  inb_S4000x128_S4000x128_0_0 : ∀ a, (![0, 0] : Fin 2 → Nat) a + S4000x128.size a ≤ S4000x128.size a
  h_S4000x128 : 0 < S4000x128.numel
  slices_S500000x128_S500000x64_0_0 : S500000x128.Slices ![0, 0] S500000x64
  slices_S500000x128_S500000x64_0_64 : S500000x128.Slices ![0, 64] S500000x64
  bcast_S_S50000x64 : S_.BroadcastsInDim S50000x64 (![] : Fin 0 → Fin S50000x64.rank)
  gather_S50000x64_S500000x1_S500000x64_1_0_n_n_0_1_164_wf : GatherDims.WF S50000x64 S500000x1 S500000x64 [1] [0] [] [0] [] 1 ![1, 64]
  dot_S4000x64_S64x64_S4000x64_1_0_0_1_n_n_wf : DotDims.WF S4000x64 S64x64 S4000x64 [1] [0] [0] [1] [] []
  dot_S4000x9_S9x64_S4000x64_1_0_0_1_n_n_wf : DotDims.WF S4000x9 S9x64 S4000x64 [1] [0] [0] [1] [] []
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S500000x64.size a
  hwx0_0 : ∀ i : grid0.Coords, EltTy.bits .f32 = 32 ∨ (Rect.block (s := S500000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S500000x64.size a
  hwx0_1 : ∀ i : grid0.Coords, EltTy.bits .f32 = 32 ∨ (Rect.block (s := S500000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S500000x64.size a
  hwx0_2 : ∀ i : grid0.Coords, EltTy.bits .f32 = 32 ∨ (Rect.block (s := S500000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x9.size a ≤ S500000x9.size a
  hwx0_3 : ∀ i : grid0.Coords, EltTy.bits .f32 = 32 ∨ (Rect.block (s := S500000x9) S4000x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .bf16 = 32 ∨ (Rect.block (s := S192x64) S192x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x64.size a ≤ S192x64.size a
  hwx0_8 : ∀ i : grid0.Coords, EltTy.bits .bf16 = 32 ∨ (Rect.block (s := S192x64) S192x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S9x64.size a ≤ S9x64.size a
  hwx0_12 : ∀ i : grid0.Coords, EltTy.bits .bf16 = 32 ∨ (Rect.block (s := S9x64) S9x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S192x64.size a ≤ S192x64.size a
  hwx0_13 : ∀ i : grid0.Coords, EltTy.bits .bf16 = 32 ∨ (Rect.block (s := S192x64) S192x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .bf16 = 32 ∨ (Rect.block (s := S64x64) S64x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S192x64.size a ≤ S192x64.size a
  hwx0_17 : ∀ i : grid0.Coords, EltTy.bits .bf16 = 32 ∨ (Rect.block (s := S192x64) S192x64.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x64.size a ≤ S64x64.size a
  hwx0_19 : ∀ i : grid0.Coords, EltTy.bits .bf16 = 32 ∨ (Rect.block (s := S64x64) S64x64.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S9x64.size a ≤ S9x64.size a
  hwx0_21 : ∀ i : grid0.Coords, EltTy.bits .bf16 = 32 ∨ (Rect.block (s := S9x64) S9x64.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S4000x128.size a ≤ S500000x128.size a
  hwx0_22 : ∀ i : grid0.Coords, EltTy.bits .f32 = 32 ∨ (Rect.block (s := S500000x128) S4000x128.size (cc0_transform_22 i) (hinb0_22 i)).WholeWords (EltTy.packing .f32)

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x9_S9x64_S4000x64_1_0_0_1_n_n : DotDims S4000x9 S9x64 S4000x64 where
  lhsContracting := [1]
  rhsContracting := [0]
  lhsNonContracting := [0]
  rhsNonContracting := [1]
  lhsBatch := []
  rhsBatch := []
  wf := dot_S4000x9_S9x64_S4000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg19) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg20) S4000x9.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S192x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S9x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S192x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v29) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21) S192x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v30) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v22) S64x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v31) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v23) S9x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v32) S4000x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S192x64 : Shape := ⟨2, ![192, 64]⟩
abbrev S64 : Shape := ⟨1, ![64]⟩
abbrev S64x64 : Shape := ⟨2, ![64, 64]⟩
abbrev S9x64 : Shape := ⟨2, ![9, 64]⟩
abbrev S50000x64 : Shape := ⟨2, ![50000, 64]⟩
abbrev S500000x64 : Shape := ⟨2, ![500000, 64]⟩
abbrev S500000x9 : Shape := ⟨2, ![500000, 9]⟩
abbrev S500000 : Shape := ⟨1, ![500000]⟩
abbrev S_ : Shape := ⟨0, ![]⟩
abbrev S500000x1 : Shape := ⟨2, ![500000, 1]⟩
abbrev S500000x192 : Shape := ⟨2, ![500000, 192]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S192x64, .f32⟩
  | 1 => ⟨S64, .f32⟩
  | 2 => ⟨S64x64, .f32⟩
  | 3 => ⟨S64, .f32⟩
  | 4 => ⟨S192x64, .f32⟩
  | 5 => ⟨S64, .f32⟩
  | 6 => ⟨S64x64, .f32⟩
  | 7 => ⟨S64, .f32⟩
  | 8 => ⟨S9x64, .f32⟩
  | 9 => ⟨S192x64, .f32⟩
  | 10 => ⟨S64, .f32⟩
  | 11 => ⟨S64x64, .f32⟩
  | 12 => ⟨S64, .f32⟩
  | 13 => ⟨S192x64, .f32⟩
  | 14 => ⟨S64, .f32⟩
  | 15 => ⟨S64x64, .f32⟩
  | 16 => ⟨S64, .f32⟩
  | 17 => ⟨S9x64, .f32⟩
  | 18 => ⟨S50000x64, .f32⟩
  | 19 => ⟨S500000x64, .f32⟩
  | 20 => ⟨S500000x9, .f32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x64, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x64, .f32⟩
  | 41 => ⟨S500000x192, .f32⟩
  | 42 => ⟨S500000x64, .f32⟩
  | 43 => ⟨S1x64, .f32⟩
  | 44 => ⟨S500000x64, .f32⟩
  | 45 => ⟨S500000x64, .f32⟩
  | 46 => ⟨S500000x64, .f32⟩
  | 47 => ⟨S500000x64, .f32⟩
  | 48 => ⟨S_, .f32⟩
  | 49 => ⟨S500000x64, .f32⟩
  | 50 => ⟨S500000x64, .f32⟩
  | 51 => ⟨S_, .f32⟩
  | 52 => ⟨S500000x64, .f32⟩
  | 53 => ⟨S500000x64, .f32⟩
  | 54 => ⟨S500000x64, .f32⟩
  | 55 => ⟨S500000x64, .f32⟩
  | 56 => ⟨S1x64, .f32⟩
  | 57 => ⟨S500000x64, .f32⟩
  | 58 => ⟨S500000x64, .f32⟩
  | 59 => ⟨S500000x64, .f32⟩
  | 60 => ⟨S500000x64, .f32⟩
  | 61 => ⟨S_, .f32⟩
  | 62 => ⟨S500000x64, .f32⟩
  | 63 => ⟨S500000x64, .f32⟩
  | 64 => ⟨S_, .f32⟩
  | 65 => ⟨S500000x64, .f32⟩
  | 66 => ⟨S500000x64, .f32⟩
  | 67 => ⟨S500000x64, .f32⟩
  | 68 => ⟨S500000x64, .f32⟩
  | 69 => ⟨S1x64, .f32⟩
  | 70 => ⟨S500000x64, .f32⟩
  | 71 => ⟨S500000x64, .f32⟩
  | 72 => ⟨S500000x64, .f32⟩
  | 73 => ⟨S500000x64, .f32⟩
  | 74 => ⟨S_, .f32⟩
  | 75 => ⟨S500000x64, .f32⟩
  | 76 => ⟨S500000x64, .f32⟩
  | 77 => ⟨S_, .f32⟩
  | 78 => ⟨S500000x64, .f32⟩
  | 79 => ⟨S500000x64, .f32⟩
  | 80 => ⟨S500000x64, .f32⟩
  | 81 => ⟨S500000x64, .f32⟩
  | 82 => ⟨S1x64, .f32⟩
  | 83 => ⟨S500000x64, .f32⟩
  | 84 => ⟨S500000x64, .f32⟩
  | 85 => ⟨S500000x64, .f32⟩
  | 86 => ⟨S500000x64, .f32⟩
  | 87 => ⟨S_, .f32⟩
  | 88 => ⟨S500000x64, .f32⟩
  | 89 => ⟨S500000x64, .f32⟩
  | 90 => ⟨S_, .f32⟩
  | 91 => ⟨S500000x64, .f32⟩
  | 92 => ⟨S500000x64, .f32⟩
  | 93 => ⟨S500000x64, .f32⟩
  | 94 => ⟨S500000x64, .f32⟩
  | 95 => ⟨S500000x64, .f32⟩
  | 96 => ⟨S500000x64, .f32⟩
  | 97 => ⟨S500000x192, .f32⟩
  | 98 => ⟨S500000x64, .f32⟩
  | 99 => ⟨S1x64, .f32⟩
  | 100 => ⟨S500000x64, .f32⟩
  | 101 => ⟨S500000x64, .f32⟩
  | 102 => ⟨S500000x64, .f32⟩
  | 103 => ⟨S500000x64, .f32⟩
  | 104 => ⟨S_, .f32⟩
  | 105 => ⟨S500000x64, .f32⟩
  | 106 => ⟨S500000x64, .f32⟩
  | 107 => ⟨S_, .f32⟩
  | 108 => ⟨S500000x64, .f32⟩
  | 109 => ⟨S500000x64, .f32⟩
  | 110 => ⟨S500000x64, .f32⟩
  | 111 => ⟨S500000x64, .f32⟩
  | 112 => ⟨S1x64, .f32⟩
  | 113 => ⟨S500000x64, .f32⟩
  | 114 => ⟨S500000x64, .f32⟩
  | 115 => ⟨S500000x64, .f32⟩
  | 116 => ⟨S500000x64, .f32⟩
  | 117 => ⟨S_, .f32⟩
  | 118 => ⟨S500000x64, .f32⟩
  | 119 => ⟨S500000x64, .f32⟩
  | 120 => ⟨S_, .f32⟩
  | 121 => ⟨S500000x64, .f32⟩
  | 122 => ⟨S500000x64, .f32⟩
  | 123 => ⟨S500000x64, .f32⟩
  | 124 => ⟨S500000x64, .f32⟩
  | 125 => ⟨S1x64, .f32⟩
  | 126 => ⟨S500000x64, .f32⟩
  | 127 => ⟨S500000x64, .f32⟩
  | _ => ⟨S192x64, .f32⟩

abbrev hbmTy0_1 (i : Nat) : BufTy := match i % 128 with
  | 0 => ⟨S500000x64, .f32⟩
  | 1 => ⟨S500000x64, .f32⟩
  | 2 => ⟨S_, .f32⟩
  | 3 => ⟨S500000x64, .f32⟩
  | 4 => ⟨S500000x64, .f32⟩
  | 5 => ⟨S_, .f32⟩
  | 6 => ⟨S500000x64, .f32⟩
  | 7 => ⟨S500000x64, .f32⟩
  | 8 => ⟨S500000x64, .f32⟩
  | 9 => ⟨S500000x64, .f32⟩
  | 10 => ⟨S1x64, .f32⟩
  | 11 => ⟨S500000x64, .f32⟩
  | 12 => ⟨S500000x64, .f32⟩
  | 13 => ⟨S500000x64, .f32⟩
  | 14 => ⟨S500000x64, .f32⟩
  | 15 => ⟨S_, .f32⟩
  | 16 => ⟨S500000x64, .f32⟩
  | 17 => ⟨S500000x64, .f32⟩
  | 18 => ⟨S_, .f32⟩
  | 19 => ⟨S500000x64, .f32⟩
  | 20 => ⟨S500000x64, .f32⟩
  | 21 => ⟨S500000x64, .f32⟩
  | 22 => ⟨S500000x64, .f32⟩
  | 23 => ⟨S500000x64, .f32⟩
  | 24 => ⟨S_, .f32⟩
  | 25 => ⟨S50000x64, .f32⟩
  | 26 => ⟨S500000x1, .i32⟩
  | 27 => ⟨S50000x64, .f32⟩
  | 28 => ⟨S50000x64, .f32⟩
  | _ => ⟨S192x64, .f32⟩

abbrev hbmTy (i : Nat) : BufTy := match i / 128 with
  | 0 => hbmTy0_0 i
  | 1 => hbmTy0_1 i
  | _ => ⟨S192x64, .f32⟩

abbrev bufTy : (tb : Table) → Fin (tcTables nBuf tb) → BufTy
  | .hbm, ⟨i, _⟩ => hbmTy i
  | _, _ => ⟨S192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst : Ref sig .tc := ⟨.hbm, 87, rfl⟩
abbrev main_v36 : Ref sig .tc := ⟨.hbm, 88, rfl⟩
abbrev main_v37 : Ref sig .tc := ⟨.hbm, 89, rfl⟩
abbrev main_cst_3 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_call4_v0 : Ref sig .tc := ⟨.hbm, 115, rfl⟩
abbrev main_call4_v1 : Ref sig .tc := ⟨.hbm, 116, rfl⟩
abbrev main_call4_cst : Ref sig .tc := ⟨.hbm, 117, rfl⟩
abbrev main_call4_v2 : Ref sig .tc := ⟨.hbm, 118, rfl⟩
abbrev main_call4_v3 : Ref sig .tc := ⟨.hbm, 119, rfl⟩
abbrev main_call4_cst_0 : Ref sig .tc := ⟨.hbm, 120, rfl⟩
abbrev main_call4_v4 : Ref sig .tc := ⟨.hbm, 121, rfl⟩
abbrev main_call4_v5 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_cst_4 : Ref sig .tc := ⟨.hbm, 143, rfl⟩
abbrev main_v66 : Ref sig .tc := ⟨.hbm, 144, rfl⟩
abbrev main_v67 : Ref sig .tc := ⟨.hbm, 145, rfl⟩
abbrev main_cst_5 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_cst_6 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x64_S500000x192_d1 : Shape.Concatenates [S500000x64, S500000x64, S500000x64] S500000x192 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S_S50000x64 : S_.BroadcastsInDim S50000x64 (![] : Fin 0 → Fin S50000x64.rank)
  gather_S50000x64_S500000x1_S500000x64_1_0_n_n_0_1_164_wf : GatherDims.WF S50000x64 S500000x1 S500000x64 [1] [0] [] [0] [] 1 ![1, 64]
  dot_S500000x192_S192x64_S500000x64_1_0_0_1_n_n_wf : DotDims.WF S500000x192 S192x64 S500000x64 [1] [0] [0] [1] [] []
  dot_S500000x64_S64x64_S500000x64_1_0_0_1_n_n_wf : DotDims.WF S500000x64 S64x64 S500000x64 [1] [0] [0] [1] [] []
  dot_S500000x9_S9x64_S500000x64_1_0_0_1_n_n_wf : DotDims.WF S500000x9 S9x64 S500000x64 [1] [0] [0] [1] [] []
  scatter_S50000x64_S500000x1_S500000x64_1_0_0_1_wf : ScatterDims.WF S50000x64 S500000x1 S500000x64 [1] [0] [0] 1

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x192_S192x64_S500000x64_1_0_0_1_n_n : DotDims S500000x192 S192x64 S500000x64 where
  lhsContracting := [1]
  rhsContracting := [0]
  lhsNonContracting := [0]
  rhsNonContracting := [1]
  lhsBatch := []
  rhsBatch := []
  wf := dot_S500000x192_S192x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S500000x9_S9x64_S500000x64_1_0_0_1_n_n : DotDims S500000x9 S9x64 S500000x64 where
  lhsContracting := [1]
  rhsContracting := [0]
  lhsNonContracting := [0]
  rhsNonContracting := [1]
  lhsBatch := []
  rhsBatch := []
  wf := dot_S500000x9_S9x64_S500000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

class Facts : Prop extends Facts₀ where

variable [Facts]
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.Spec.lean ====
/-
  The mathematics of one edge-and-node update of a gated graph convolution, row by row, on the extended reals.

  For an edge with endpoint features x, y (64 numbers each), edge features z (64) and a radial basis rb (9):
    dense3 W b x y z   = ((x·W[0:64] + y·W[64:128]) + z·W[128:192]) + b        (a 192 → 64 layer fed by three pieces)
    dense  W b h       = h·W + b                                              (a 64 → 64 layer)
    gated  P x y z rb  = silu(dense(silu(dense3 …))) · σ(dense(silu(dense3 …))) · (rb·Wr)
    edge   P x y z rb  = z + gated P x y z rb
    mess   Pe Pn …     = gated Pn x y (edge Pe x y z rb) rb
  with silu t = t·σ(t) and σ the logistic function.  Nothing here needs finiteness: the only law used between the
  two programs is that a sum over 192 = 64 + 64 + 64 indices is the sum of the three partial sums (associativity of +).
-/
import Idealize.ShloMosaic.PureOps.Ideal
import Idealize.ShloMosaic.Lib.ValueIdx
import proofs.«145422_j10677288698373_2_alg».proof.Proof.LibColumnJoin

noncomputable section

namespace Cert.EdgeNode

open Idealize.ShloMosaic Idealize.ShloMosaic.ValueIdx

/-- An a × b matrix of extended reals, indexed as the programs index theirs. -/
abbrev Mat (a b : Nat) : Type := (⟨2, ![a, b]⟩ : Shape).Idx → EReal

/-- t · σ(t). -/
def silu (t : EReal) : EReal := t * Ideal.logistic t

/-- The 192 → 64 layer on the three 64-wide pieces x, y, z of its input, at output column c. -/
def dense3 (w : Mat 192 64) (b : Fin 64 → EReal) (x y z : Fin 64 → EReal) (c : Fin 64) : EReal :=
  (((∑ k : Fin 64, x k * w (ix2 (⟨k.val, by have := k.isLt; omega⟩ : Fin 192) c))
      + ∑ k : Fin 64, y k * w (ix2 (⟨64 + k.val, by have := k.isLt; omega⟩ : Fin 192) c))
      + ∑ k : Fin 64, z k * w (ix2 (⟨128 + k.val, by have := k.isLt; omega⟩ : Fin 192) c)) + b c

/-- The 64 → 64 layer at output column c. -/
def dense (w : Mat 64 64) (b : Fin 64 → EReal) (h : Fin 64 → EReal) (c : Fin 64) : EReal :=
  (∑ k : Fin 64, h k * w (ix2 k c)) + b c

/-- The radial-basis weight rb · Wr at column c. -/
def radial (w : Mat 9 64) (rb : Fin 9 → EReal) (c : Fin 64) : EReal := ∑ k : Fin 9, rb k * w (ix2 k c)

/-- The parameters of one gated block: the value branch (lw, lb), the gate branch (gw, gb), the radial weight. -/
structure Layer where
  lw0 : Mat 192 64
  lb0 : Fin 64 → EReal
  lw1 : Mat 64 64
  lb1 : Fin 64 → EReal
  gw0 : Mat 192 64
  gb0 : Fin 64 → EReal
  gw1 : Mat 64 64
  gb1 : Fin 64 → EReal
  wr : Mat 9 64

/-- (silu ∘ dense ∘ silu ∘ dense3) · (σ ∘ dense ∘ silu ∘ dense3) · radial, at column c. -/
def gated (P : Layer) (x y z : Fin 64 → EReal) (rb : Fin 9 → EReal) (c : Fin 64) : EReal :=
  (silu (dense P.lw1 P.lb1 (fun k => silu (dense3 P.lw0 P.lb0 x y z k)) c)
      * Ideal.logistic (dense P.gw1 P.gb1 (fun k => silu (dense3 P.gw0 P.gb0 x y z k)) c))
    * radial P.wr rb c

/-- The updated edge features. -/
def edgeRow (P : Layer) (x y z : Fin 64 → EReal) (rb : Fin 9 → EReal) (c : Fin 64) : EReal :=
  z c + gated P x y z rb c

/-- The message the edge sends, computed from the UPDATED edge features. -/
def messRow (Pe Pn : Layer) (x y z : Fin 64 → EReal) (rb : Fin 9 → EReal) (c : Fin 64) : EReal :=
  gated Pn x y (edgeRow Pe x y z rb) rb c

/-- Row r of an M × n matrix. -/
def row {M n : Nat} (a : Mat M n) (r : Fin M) : Fin n → EReal := fun k => a (ix2 r k)

/-- The updated edge features of all M edges. -/
def edgeArr {M : Nat} (P : Layer) (vi vj ef : Mat M 64) (rbf : Mat M 9) : Mat M 64 :=
  fun i => edgeRow P (row vi (i 0)) (row vj (i 0)) (row ef (i 0)) (row rbf (i 0)) (i 1)

/-- The messages of all M edges. -/
def messArr {M : Nat} (Pe Pn : Layer) (vi vj ef : Mat M 64) (rbf : Mat M 9) : Mat M 64 :=
  fun i => messRow Pe Pn (row vi (i 0)) (row vj (i 0)) (row ef (i 0)) (row rbf (i 0)) (i 1)

theorem edgeArr_apply {M : Nat} (P : Layer) (vi vj ef : Mat M 64) (rbf : Mat M 9) (r : Fin M) (c : Fin 64) :
    edgeArr P vi vj ef rbf (ix2 r c) = edgeRow P (row vi r) (row vj r) (row ef r) (row rbf r) c := rfl

theorem messArr_apply {M : Nat} (Pe Pn : Layer) (vi vj ef : Mat M 64) (rbf : Mat M 9) (r : Fin M) (c : Fin 64) :
    messArr Pe Pn vi vj ef rbf (ix2 r c) = messRow Pe Pn (row vi r) (row vj r) (row ef r) (row rbf r) c := rfl

/-- A block's parameters from the arrays that hold them: weights as matrices, each bias as one row [1, 64]. -/
def layerOfRows (lw0 : Mat 192 64) (lb0 : Mat 1 64) (lw1 : Mat 64 64) (lb1 : Mat 1 64)
    (gw0 : Mat 192 64) (gb0 : Mat 1 64) (gw1 : Mat 64 64) (gb1 : Mat 1 64) (wr : Mat 9 64) : Layer :=
  ⟨lw0, fun c => lb0 (ix2 (0 : Fin 1) c), lw1, fun c => lb1 (ix2 (0 : Fin 1) c),
   gw0, fun c => gb0 (ix2 (0 : Fin 1) c), gw1, fun c => gb1 (ix2 (0 : Fin 1) c), wr⟩

/-- A block's parameters with each bias a vector [64]. -/
def layerOfVecs (lw0 : Mat 192 64) (lb0 : (⟨1, ![64]⟩ : Shape).Idx → EReal) (lw1 : Mat 64 64) (lb1 : (⟨1, ![64]⟩ : Shape).Idx → EReal)
    (gw0 : Mat 192 64) (gb0 : (⟨1, ![64]⟩ : Shape).Idx → EReal) (gw1 : Mat 64 64) (gb1 : (⟨1, ![64]⟩ : Shape).Idx → EReal)
    (wr : Mat 9 64) : Layer :=
  ⟨lw0, fun c => lb0 (ix1 c), lw1, fun c => lb1 (ix1 c), gw0, fun c => gb0 (ix1 c), gw1, fun c => gb1 (ix1 c), wr⟩

/-- THE LAW BETWEEN THE TWO ARRANGEMENTS: one product with the joined 192-wide row u = [x | y | z] is the three
    partial products added up.  Only the associativity of + on the extended reals is used. -/
theorem dense3_of_joined (w : Mat 192 64) (b : Fin 64 → EReal) (x y z : Fin 64 → EReal) (c : Fin 64) (u : Fin 192 → EReal)
    (hx : ∀ k : Fin 64, u ⟨k.val, by have := k.isLt; omega⟩ = x k)
    (hy : ∀ k : Fin 64, u ⟨64 + k.val, by have := k.isLt; omega⟩ = y k)
    (hz : ∀ k : Fin 64, u ⟨128 + k.val, by have := k.isLt; omega⟩ = z k) :
    (∑ j : Fin 192, u j * w (ix2 j c)) + b c = dense3 w b x y z c := by
  unfold dense3
  congr 1
  rw [ColumnJoin.sum_fin_split 128 64 (by norm_num) (fun j : Fin 192 => u j * w (ix2 j c)),
    ColumnJoin.sum_fin_split 64 64 (by norm_num)
      (fun d : Fin 128 => u ⟨d.val, by have := d.isLt; omega⟩ * w (ix2 (⟨d.val, by have := d.isLt; omega⟩ : Fin 192) c))]
  congr 1
  · congr 1
    · exact Finset.sum_congr rfl fun k _ => by rw [hx k]
    · exact Finset.sum_congr rfl fun k _ => by rw [hy k]
  · exact Finset.sum_congr rfl fun k _ => by rw [hz k]

end Cert.EdgeNode

end
-- ==== Proof.KernelWindows.lean ====
/-
  What the kernel's windows hold when the body runs at grid point t, at the ideal instance.

  The grid has 125 points; point t handles the 4000 edges 4000·t … 4000·t + 3999.  The four per-edge inputs (the
  gathered endpoint features vi, vj, the edge features, the radial basis) are cut into 4000-row blocks, block t for
  point t; the eighteen parameter arrays are each ONE block, the same at every point.  The parameter arrays as the
  region finds them are the program's arguments up to a change of float format (the identity on the extended reals)
  and, for the biases, a reshape of [64] to one row [1, 64]; vi and vj are rows of the node features gathered at the
  (wrapped) source and destination indices.
-/
import proofs.«145422_j10677288698373_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Windows

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-! ## The block index of every window at every grid point

The per-edge windows and the output move with the point along the rows; every parameter window stays at block (0, 0). -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_22 : ∀ t : Fin cfg0.N, win0_22.index t (0 : Fin 2) = t.val ∧ win0_22.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_9 : ∀ t : Fin cfg0.N, win0_9.index t (0 : Fin 2) = 0 ∧ win0_9.index t (1 : Fin 2) = 0 :=
  (by decide +kernel : ∀ t : Fin grid0.N, _)
theorem index_10 : ∀ t : Fin cfg0.N, win0_10.index t (0 : Fin 2) = 0 ∧ win0_10.index t (1 : Fin 2) = 0 :=
  (by decide +kernel : ∀ t : Fin grid0.N, _)
theorem index_11 : ∀ t : Fin cfg0.N, win0_11.index t (0 : Fin 2) = 0 ∧ win0_11.index t (1 : Fin 2) = 0 :=
  (by decide +kernel : ∀ t : Fin grid0.N, _)
theorem index_12 : ∀ t : Fin cfg0.N, win0_12.index t (0 : Fin 2) = 0 ∧ win0_12.index t (1 : Fin 2) = 0 :=
  (by decide +kernel : ∀ t : Fin grid0.N, _)
theorem index_13 : ∀ t : Fin cfg0.N, win0_13.index t (0 : Fin 2) = 0 ∧ win0_13.index t (1 : Fin 2) = 0 :=
  (by decide +kernel : ∀ t : Fin grid0.N, _)
theorem index_14 : ∀ t : Fin cfg0.N, win0_14.index t (0 : Fin 2) = 0 ∧ win0_14.index t (1 : Fin 2) = 0 :=
  (by decide +kernel : ∀ t : Fin grid0.N, _)
theorem index_15 : ∀ t : Fin cfg0.N, win0_15.index t (0 : Fin 2) = 0 ∧ win0_15.index t (1 : Fin 2) = 0 :=
  (by decide +kernel : ∀ t : Fin grid0.N, _)
theorem index_16 : ∀ t : Fin cfg0.N, win0_16.index t (0 : Fin 2) = 0 ∧ win0_16.index t (1 : Fin 2) = 0 :=
  (by decide +kernel : ∀ t : Fin grid0.N, _)
theorem index_17 : ∀ t : Fin cfg0.N, win0_17.index t (0 : Fin 2) = 0 ∧ win0_17.index t (1 : Fin 2) = 0 :=
  (by decide +kernel : ∀ t : Fin grid0.N, _)
theorem index_18 : ∀ t : Fin cfg0.N, win0_18.index t (0 : Fin 2) = 0 ∧ win0_18.index t (1 : Fin 2) = 0 :=
  (by decide +kernel : ∀ t : Fin grid0.N, _)
theorem index_19 : ∀ t : Fin cfg0.N, win0_19.index t (0 : Fin 2) = 0 ∧ win0_19.index t (1 : Fin 2) = 0 :=
  (by decide +kernel : ∀ t : Fin grid0.N, _)
theorem index_20 : ∀ t : Fin cfg0.N, win0_20.index t (0 : Fin 2) = 0 ∧ win0_20.index t (1 : Fin 2) = 0 :=
  (by decide +kernel : ∀ t : Fin grid0.N, _)
theorem index_21 : ∀ t : Fin cfg0.N, win0_21.index t (0 : Fin 2) = 0 ∧ win0_21.index t (1 : Fin 2) = 0 :=
  (by decide +kernel : ∀ t : Fin grid0.N, _)

/-! ## The per-edge windows: row r of block t is row 4000·t + r of the array -/

theorem blk0 (c : Dev nD) (t : Fin cfg0.N) (r : Fin 4000) (k : Fin 64) (e : Fin 500000) (he : e.val = 4000 * t.val + r.val) :
    iblk (F := Ideal) m c 0 t (ix2 r k) = V m c main_v6 (ix2 e k) := by
  show V m c main_v6 (((cfg0.win 0).blk t).view.emb (ix2 r k)) = V m c main_v6 (ix2 e k)
  refine congrArg (V m c main_v6) ?_
  obtain ⟨h0, h1⟩ := index_0 t
  funext a; apply Fin.ext
  match a with
  | ⟨0, _⟩ => show win0_0.index t (0 : Fin 2) * 4000 + 1 * r.val = e.val; omega
  | ⟨1, _⟩ => show win0_0.index t (1 : Fin 2) * 64 + 1 * k.val = k.val; omega

theorem blk1 (c : Dev nD) (t : Fin cfg0.N) (r : Fin 4000) (k : Fin 64) (e : Fin 500000) (he : e.val = 4000 * t.val + r.val) :
    iblk (F := Ideal) m c 1 t (ix2 r k) = V m c main_v13 (ix2 e k) := by
  show V m c main_v13 (((cfg0.win 1).blk t).view.emb (ix2 r k)) = V m c main_v13 (ix2 e k)
  refine congrArg (V m c main_v13) ?_
  obtain ⟨h0, h1⟩ := index_1 t
  funext a; apply Fin.ext
  match a with
  | ⟨0, _⟩ => show win0_1.index t (0 : Fin 2) * 4000 + 1 * r.val = e.val; omega
  | ⟨1, _⟩ => show win0_1.index t (1 : Fin 2) * 64 + 1 * k.val = k.val; omega

theorem blk2 (c : Dev nD) (t : Fin cfg0.N) (r : Fin 4000) (k : Fin 64) (e : Fin 500000) (he : e.val = 4000 * t.val + r.val) :
    iblk (F := Ideal) m c 2 t (ix2 r k) = V m c main_arg19 (ix2 e k) := by
  show V m c main_arg19 (((cfg0.win 2).blk t).view.emb (ix2 r k)) = V m c main_arg19 (ix2 e k)
  refine congrArg (V m c main_arg19) ?_
  obtain ⟨h0, h1⟩ := index_2 t
  funext a; apply Fin.ext
  match a with
  | ⟨0, _⟩ => show win0_2.index t (0 : Fin 2) * 4000 + 1 * r.val = e.val; omega
  | ⟨1, _⟩ => show win0_2.index t (1 : Fin 2) * 64 + 1 * k.val = k.val; omega

theorem blk3 (c : Dev nD) (t : Fin cfg0.N) (r : Fin 4000) (k : Fin 9) (e : Fin 500000) (he : e.val = 4000 * t.val + r.val) :
    iblk (F := Ideal) m c 3 t (ix2 r k) = V m c main_arg20 (ix2 e k) := by
  show V m c main_arg20 (((cfg0.win 3).blk t).view.emb (ix2 r k)) = V m c main_arg20 (ix2 e k)
  refine congrArg (V m c main_arg20) ?_
  obtain ⟨h0, h1⟩ := index_3 t
  funext a; apply Fin.ext
  match a with
  | ⟨0, _⟩ => show win0_3.index t (0 : Fin 2) * 4000 + 1 * r.val = e.val; omega
  | ⟨1, _⟩ => show win0_3.index t (1 : Fin 2) * 9 + 1 * k.val = k.val; omega

/-! ## The parameter windows: the one block is the whole array -/

theorem blk4 (c : Dev nD) (t : Fin cfg0.N) : iblk (F := Ideal) m c 4 t = V m c main_v14 := by
  funext y
  show V m c main_v14 (((cfg0.win 4).blk t).view.emb y) = V m c main_v14 y
  refine congrArg (V m c main_v14) ?_
  obtain ⟨h0, h1⟩ := index_4 t
  funext a; apply Fin.ext
  match a with
  | ⟨0, _⟩ => show win0_4.index t (0 : Fin 2) * 192 + 1 * (y 0).val = (y 0).val; omega
  | ⟨1, _⟩ => show win0_4.index t (1 : Fin 2) * 64 + 1 * (y 1).val = (y 1).val; omega

theorem blk5 (c : Dev nD) (t : Fin cfg0.N) : iblk (F := Ideal) m c 5 t = V m c main_v24 := by
  funext y
  show V m c main_v24 (((cfg0.win 5).blk t).view.emb y) = V m c main_v24 y
  refine congrArg (V m c main_v24) ?_
  obtain ⟨h0, h1⟩ := index_5 t
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem blk6 (c : Dev nD) (t : Fin cfg0.N) : iblk (F := Ideal) m c 6 t = V m c main_v15 := by
  funext y
  show V m c main_v15 (((cfg0.win 6).blk t).view.emb y) = V m c main_v15 y
  refine congrArg (V m c main_v15) ?_
  obtain ⟨h0, h1⟩ := index_6 t
  funext a; apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem blk7 (c : Dev nD) (t : Fin cfg0.N) : iblk (F := Ideal) m c 7 t = V m c main_v25 := by
  funext y
  show V m c main_v25 (((cfg0.win 7).blk t).view.emb y) = V m c main_v25 y
  refine congrArg (V m c main_v25) ?_
  obtain ⟨h0, h1⟩ := index_7 t
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

theorem blk8 (c : Dev nD) (t : Fin cfg0.N) : iblk (F := Ideal) m c 8 t = V m c main_v16 := by
  funext y
  show V m c main_v16 (((cfg0.win 8).blk t).view.emb y) = V m c main_v16 y
  refine congrArg (V m c main_v16) ?_
  obtain ⟨h0, h1⟩ := index_8 t
  funext a; apply Fin.ext
  match a with
  | ⟨0, _⟩ => show win0_8.index t (0 : Fin 2) * 192 + 1 * (y 0).val = (y 0).val; omega
  | ⟨1, _⟩ => show win0_8.index t (1 : Fin 2) * 64 + 1 * (y 1).val = (y 1).val; omega

theorem blk9 (c : Dev nD) (t : Fin cfg0.N) : iblk (F := Ideal) m c 9 t = V m c main_v26 := by
  funext y
  show V m c main_v26 (((cfg0.win 9).blk t).view.emb y) = V m c main_v26 y
  refine congrArg (V m c main_v26) ?_
  obtain ⟨h0, h1⟩ := index_9 t
  funext a; apply Fin.ext
  match a with
  | ⟨0, _⟩ => show win0_9.index t (0 : Fin 2) * 1 + 1 * (y 0).val = (y 0).val; omega
  | ⟨1, _⟩ => show win0_9.index t (1 : Fin 2) * 64 + 1 * (y 1).val = (y 1).val; omega

theorem blk10 (c : Dev nD) (t : Fin cfg0.N) : iblk (F := Ideal) m c 10 t = V m c main_v17 := by
  funext y
  show V m c main_v17 (((cfg0.win 10).blk t).view.emb y) = V m c main_v17 y
  refine congrArg (V m c main_v17) ?_
  obtain ⟨h0, h1⟩ := index_10 t
  funext a; apply Fin.ext
  match a with
  | ⟨0, _⟩ => show win0_10.index t (0 : Fin 2) * 64 + 1 * (y 0).val = (y 0).val; omega
  | ⟨1, _⟩ => show win0_10.index t (1 : Fin 2) * 64 + 1 * (y 1).val = (y 1).val; omega

theorem blk11 (c : Dev nD) (t : Fin cfg0.N) : iblk (F := Ideal) m c 11 t = V m c main_v27 := by
  funext y
  show V m c main_v27 (((cfg0.win 11).blk t).view.emb y) = V m c main_v27 y
  refine congrArg (V m c main_v27) ?_
  obtain ⟨h0, h1⟩ := index_11 t
  funext a; apply Fin.ext
  match a with
  | ⟨0, _⟩ => show win0_11.index t (0 : Fin 2) * 1 + 1 * (y 0).val = (y 0).val; omega
  | ⟨1, _⟩ => show win0_11.index t (1 : Fin 2) * 64 + 1 * (y 1).val = (y 1).val; omega

theorem blk12 (c : Dev nD) (t : Fin cfg0.N) : iblk (F := Ideal) m c 12 t = V m c main_v18 := by
  funext y
  show V m c main_v18 (((cfg0.win 12).blk t).view.emb y) = V m c main_v18 y
  refine congrArg (V m c main_v18) ?_
  obtain ⟨h0, h1⟩ := index_12 t
  funext a; apply Fin.ext
  match a with
  | ⟨0, _⟩ => show win0_12.index t (0 : Fin 2) * 9 + 1 * (y 0).val = (y 0).val; omega
  | ⟨1, _⟩ => show win0_12.index t (1 : Fin 2) * 64 + 1 * (y 1).val = (y 1).val; omega

theorem blk13 (c : Dev nD) (t : Fin cfg0.N) : iblk (F := Ideal) m c 13 t = V m c main_v19 := by
  funext y
  show V m c main_v19 (((cfg0.win 13).blk t).view.emb y) = V m c main_v19 y
  refine congrArg (V m c main_v19) ?_
  obtain ⟨h0, h1⟩ := index_13 t
  funext a; apply Fin.ext
  match a with
  | ⟨0, _⟩ => show win0_13.index t (0 : Fin 2) * 192 + 1 * (y 0).val = (y 0).val; omega
  | ⟨1, _⟩ => show win0_13.index t (1 : Fin 2) * 64 + 1 * (y 1).val = (y 1).val; omega

theorem blk14 (c : Dev nD) (t : Fin cfg0.N) : iblk (F := Ideal) m c 14 t = V m c main_v28 := by
  funext y
  show V m c main_v28 (((cfg0.win 14).blk t).view.emb y) = V m c main_v28 y
  refine congrArg (V m c main_v28) ?_
  obtain ⟨h0, h1⟩ := index_14 t
  funext a; apply Fin.ext
  match a with
  | ⟨0, _⟩ => show win0_14.index t (0 : Fin 2) * 1 + 1 * (y 0).val = (y 0).val; omega
  | ⟨1, _⟩ => show win0_14.index t (1 : Fin 2) * 64 + 1 * (y 1).val = (y 1).val; omega

theorem blk15 (c : Dev nD) (t : Fin cfg0.N) : iblk (F := Ideal) m c 15 t = V m c main_v20 := by
  funext y
  show V m c main_v20 (((cfg0.win 15).blk t).view.emb y) = V m c main_v20 y
  refine congrArg (V m c main_v20) ?_
  obtain ⟨h0, h1⟩ := index_15 t
  funext a; apply Fin.ext
  match a with
  | ⟨0, _⟩ => show win0_15.index t (0 : Fin 2) * 64 + 1 * (y 0).val = (y 0).val; omega
  | ⟨1, _⟩ => show win0_15.index t (1 : Fin 2) * 64 + 1 * (y 1).val = (y 1).val; omega

theorem blk16 (c : Dev nD) (t : Fin cfg0.N) : iblk (F := Ideal) m c 16 t = V m c main_v29 := by
  funext y
  show V m c main_v29 (((cfg0.win 16).blk t).view.emb y) = V m c main_v29 y
  refine congrArg (V m c main_v29) ?_
  obtain ⟨h0, h1⟩ := index_16 t
  funext a; apply Fin.ext
  match a with
  | ⟨0, _⟩ => show win0_16.index t (0 : Fin 2) * 1 + 1 * (y 0).val = (y 0).val; omega
  | ⟨1, _⟩ => show win0_16.index t (1 : Fin 2) * 64 + 1 * (y 1).val = (y 1).val; omega

theorem blk17 (c : Dev nD) (t : Fin cfg0.N) : iblk (F := Ideal) m c 17 t = V m c main_v21 := by
  funext y
  show V m c main_v21 (((cfg0.win 17).blk t).view.emb y) = V m c main_v21 y
  refine congrArg (V m c main_v21) ?_
  obtain ⟨h0, h1⟩ := index_17 t
  funext a; apply Fin.ext
  match a with
  | ⟨0, _⟩ => show win0_17.index t (0 : Fin 2) * 192 + 1 * (y 0).val = (y 0).val; omega
  | ⟨1, _⟩ => show win0_17.index t (1 : Fin 2) * 64 + 1 * (y 1).val = (y 1).val; omega

theorem blk18 (c : Dev nD) (t : Fin cfg0.N) : iblk (F := Ideal) m c 18 t = V m c main_v30 := by
  funext y
  show V m c main_v30 (((cfg0.win 18).blk t).view.emb y) = V m c main_v30 y
  refine congrArg (V m c main_v30) ?_
  obtain ⟨h0, h1⟩ := index_18 t
  funext a; apply Fin.ext
  match a with
  | ⟨0, _⟩ => show win0_18.index t (0 : Fin 2) * 1 + 1 * (y 0).val = (y 0).val; omega
  | ⟨1, _⟩ => show win0_18.index t (1 : Fin 2) * 64 + 1 * (y 1).val = (y 1).val; omega

theorem blk19 (c : Dev nD) (t : Fin cfg0.N) : iblk (F := Ideal) m c 19 t = V m c main_v22 := by
  funext y
  show V m c main_v22 (((cfg0.win 19).blk t).view.emb y) = V m c main_v22 y
  refine congrArg (V m c main_v22) ?_
  obtain ⟨h0, h1⟩ := index_19 t
  funext a; apply Fin.ext
  match a with
  | ⟨0, _⟩ => show win0_19.index t (0 : Fin 2) * 64 + 1 * (y 0).val = (y 0).val; omega
  | ⟨1, _⟩ => show win0_19.index t (1 : Fin 2) * 64 + 1 * (y 1).val = (y 1).val; omega

theorem blk20 (c : Dev nD) (t : Fin cfg0.N) : iblk (F := Ideal) m c 20 t = V m c main_v31 := by
  funext y
  show V m c main_v31 (((cfg0.win 20).blk t).view.emb y) = V m c main_v31 y
  refine congrArg (V m c main_v31) ?_
  obtain ⟨h0, h1⟩ := index_20 t
  funext a; apply Fin.ext
  match a with
  | ⟨0, _⟩ => show win0_20.index t (0 : Fin 2) * 1 + 1 * (y 0).val = (y 0).val; omega
  | ⟨1, _⟩ => show win0_20.index t (1 : Fin 2) * 64 + 1 * (y 1).val = (y 1).val; omega

theorem blk21 (c : Dev nD) (t : Fin cfg0.N) : iblk (F := Ideal) m c 21 t = V m c main_v23 := by
  funext y
  show V m c main_v23 (((cfg0.win 21).blk t).view.emb y) = V m c main_v23 y
  refine congrArg (V m c main_v23) ?_
  obtain ⟨h0, h1⟩ := index_21 t
  funext a; apply Fin.ext
  match a with
  | ⟨0, _⟩ => show win0_21.index t (0 : Fin 2) * 9 + 1 * (y 0).val = (y 0).val; omega
  | ⟨1, _⟩ => show win0_21.index t (1 : Fin 2) * 64 + 1 * (y 1).val = (y 1).val; omega

/-! ## The arrays as the region finds them, from the program's arguments -/

/-- Rows of the node features at the indices idx, a negative index wrapped once by the number of nodes (how the
    program spells node_feat[idx]). -/
def gatherRows (nf : (⟨S50000x64, .f32⟩ : BufTy).Contents (Elt Ideal)) (idx : (⟨S500000, .i32⟩ : BufTy).Contents (Elt Ideal)) :
    (⟨S500000x64, .f32⟩ : BufTy).Contents (Elt Ideal) :=
  Host.gather gather_S50000x64_S500000x1_S500000x64_1_0_n_n_0_1_164 nf
    (broadcastInDim S500000x1 ![0] bcast_S500000_S500000x1_0
      (select (cmpi .slt idx (broadcastInDim S500000 ![] bcast_S_S500000 (constantI S_ 32 0#32)))
        (addi idx (broadcastInDim S500000 ![] bcast_S_S500000 (constantI S_ 32 50000#32))) idx))

set_option maxHeartbeats 4000000 in
theorem V_v6 (c : Dev nD) : V m c main_v6
    = gatherRows (m ((c : Thread nD τ).loc main_arg18)) (m ((c : Thread nD τ).loc main_arg21)) := by
  show StableHlo.after hostOps0 (fun b => m (c, b)) (Proc.devRef .tc main_v6) = _
  after_results
  rfl

set_option maxHeartbeats 4000000 in
theorem V_v13 (c : Dev nD) : V m c main_v13
    = gatherRows (m ((c : Thread nD τ).loc main_arg18)) (m ((c : Thread nD τ).loc main_arg22)) := by
  show StableHlo.after hostOps0 (fun b => m (c, b)) (Proc.devRef .tc main_v13) = _
  after_results
  rfl

set_option maxHeartbeats 4000000 in
theorem V_v14 (c : Dev nD) : (V m c main_v14 : S192x64.Idx → EReal) = m ((c : Thread nD τ).loc main_arg0) := by
  show StableHlo.after hostOps0 (fun b => m (c, b)) (Proc.devRef .tc main_v14) = _
  after_results
  rfl

set_option maxHeartbeats 4000000 in
theorem V_v24 (c : Dev nD) : (V m c main_v24 : S1x64.Idx → EReal)
    = shapeCast S1x64 (m ((c : Thread nD τ).loc main_arg1)) shapeCasts_S64_S1x64 := by
  show StableHlo.after hostOps0 (fun b => m (c, b)) (Proc.devRef .tc main_v24) = _
  after_results
  rfl

set_option maxHeartbeats 4000000 in
theorem V_v15 (c : Dev nD) : (V m c main_v15 : S64x64.Idx → EReal) = m ((c : Thread nD τ).loc main_arg2) := by
  show StableHlo.after hostOps0 (fun b => m (c, b)) (Proc.devRef .tc main_v15) = _
  after_results
  rfl

set_option maxHeartbeats 4000000 in
theorem V_v25 (c : Dev nD) : (V m c main_v25 : S1x64.Idx → EReal)
    = shapeCast S1x64 (m ((c : Thread nD τ).loc main_arg3)) shapeCasts_S64_S1x64 := by
  show StableHlo.after hostOps0 (fun b => m (c, b)) (Proc.devRef .tc main_v25) = _
  after_results
  rfl

set_option maxHeartbeats 4000000 in
theorem V_v16 (c : Dev nD) : (V m c main_v16 : S192x64.Idx → EReal) = m ((c : Thread nD τ).loc main_arg4) := by
  show StableHlo.after hostOps0 (fun b => m (c, b)) (Proc.devRef .tc main_v16) = _
  after_results
  rfl

set_option maxHeartbeats 4000000 in
theorem V_v26 (c : Dev nD) : (V m c main_v26 : S1x64.Idx → EReal)
    = shapeCast S1x64 (m ((c : Thread nD τ).loc main_arg5)) shapeCasts_S64_S1x64 := by
  show StableHlo.after hostOps0 (fun b => m (c, b)) (Proc.devRef .tc main_v26) = _
  after_results
  rfl

set_option maxHeartbeats 4000000 in
theorem V_v17 (c : Dev nD) : (V m c main_v17 : S64x64.Idx → EReal) = m ((c : Thread nD τ).loc main_arg6) := by
  show StableHlo.after hostOps0 (fun b => m (c, b)) (Proc.devRef .tc main_v17) = _
  after_results
  rfl

set_option maxHeartbeats 4000000 in
theorem V_v27 (c : Dev nD) : (V m c main_v27 : S1x64.Idx → EReal)
    = shapeCast S1x64 (m ((c : Thread nD τ).loc main_arg7)) shapeCasts_S64_S1x64 := by
  show StableHlo.after hostOps0 (fun b => m (c, b)) (Proc.devRef .tc main_v27) = _
  after_results
  rfl

set_option maxHeartbeats 4000000 in
theorem V_v18 (c : Dev nD) : (V m c main_v18 : S9x64.Idx → EReal) = m ((c : Thread nD τ).loc main_arg8) := by
  show StableHlo.after hostOps0 (fun b => m (c, b)) (Proc.devRef .tc main_v18) = _
  after_results
  rfl

set_option maxHeartbeats 4000000 in
theorem V_v19 (c : Dev nD) : (V m c main_v19 : S192x64.Idx → EReal) = m ((c : Thread nD τ).loc main_arg9) := by
  show StableHlo.after hostOps0 (fun b => m (c, b)) (Proc.devRef .tc main_v19) = _
  after_results
  rfl

set_option maxHeartbeats 4000000 in
theorem V_v28 (c : Dev nD) : (V m c main_v28 : S1x64.Idx → EReal)
    = shapeCast S1x64 (m ((c : Thread nD τ).loc main_arg10)) shapeCasts_S64_S1x64 := by
  show StableHlo.after hostOps0 (fun b => m (c, b)) (Proc.devRef .tc main_v28) = _
  after_results
  rfl

set_option maxHeartbeats 4000000 in
theorem V_v20 (c : Dev nD) : (V m c main_v20 : S64x64.Idx → EReal) = m ((c : Thread nD τ).loc main_arg11) := by
  show StableHlo.after hostOps0 (fun b => m (c, b)) (Proc.devRef .tc main_v20) = _
  after_results
  rfl

set_option maxHeartbeats 4000000 in
theorem V_v29 (c : Dev nD) : (V m c main_v29 : S1x64.Idx → EReal)
    = shapeCast S1x64 (m ((c : Thread nD τ).loc main_arg12)) shapeCasts_S64_S1x64 := by
  show StableHlo.after hostOps0 (fun b => m (c, b)) (Proc.devRef .tc main_v29) = _
  after_results
  rfl

set_option maxHeartbeats 4000000 in
theorem V_v21 (c : Dev nD) : (V m c main_v21 : S192x64.Idx → EReal) = m ((c : Thread nD τ).loc main_arg13) := by
  show StableHlo.after hostOps0 (fun b => m (c, b)) (Proc.devRef .tc main_v21) = _
  after_results
  rfl

set_option maxHeartbeats 4000000 in
theorem V_v30 (c : Dev nD) : (V m c main_v30 : S1x64.Idx → EReal)
    = shapeCast S1x64 (m ((c : Thread nD τ).loc main_arg14)) shapeCasts_S64_S1x64 := by
  show StableHlo.after hostOps0 (fun b => m (c, b)) (Proc.devRef .tc main_v30) = _
  after_results
  rfl

set_option maxHeartbeats 4000000 in
theorem V_v22 (c : Dev nD) : (V m c main_v22 : S64x64.Idx → EReal) = m ((c : Thread nD τ).loc main_arg15) := by
  show StableHlo.after hostOps0 (fun b => m (c, b)) (Proc.devRef .tc main_v22) = _
  after_results
  rfl

set_option maxHeartbeats 4000000 in
theorem V_v31 (c : Dev nD) : (V m c main_v31 : S1x64.Idx → EReal)
    = shapeCast S1x64 (m ((c : Thread nD τ).loc main_arg16)) shapeCasts_S64_S1x64 := by
  show StableHlo.after hostOps0 (fun b => m (c, b)) (Proc.devRef .tc main_v31) = _
  after_results
  rfl

set_option maxHeartbeats 4000000 in
theorem V_v23 (c : Dev nD) : (V m c main_v23 : S9x64.Idx → EReal) = m ((c : Thread nD τ).loc main_arg17) := by
  show StableHlo.after hostOps0 (fun b => m (c, b)) (Proc.devRef .tc main_v23) = _
  after_results
  rfl

end Cert.KernelIdeal.Windows

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«145422_j10677288698373_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.KernelBlock.lean ====
/-
  What the body of the edge-and-node update leaves in its output block, entry by entry, on the extended reals.

  The body reads the two endpoints' features x, y and the edge features z (4000 rows of 64 numbers each), the radial
  basis rb (4000 rows of 9) and the parameters of two gated blocks, and stores one 4000 × 128 block [ e | m ]:
    e = z + (value · σ(gate)) · (rb · Wr)            with the edge block's parameters, fed by (x, y, z),
    m =     (value · σ(gate)) · (rb · Wr')           with the node block's parameters, fed by (x, y, e),
  where value = silu(dense(silu(dense3 …))) and gate = dense(silu(dense3 …)), silu t = t · σ(t), and dense3 is the
  192 → 64 layer written as three 64 × 64 products added from the left, then the bias.

  Every step is read at one entry (r, c): a matrix product into the zero accumulator is the sum over k of products of
  entries; a slice of 64 rows of the 192 × 64 weight reads the weight at the shifted row; a bias row spread over the rows
  reads the bias at the column; the narrowing casts and the casts to the same shape are the identity here; the pointwise
  operations act on the entries. The grouping of the additions and multiplications is the specification's own, so no law
  of arithmetic is used: the two sides are the same expression.
-/
import proofs.«145422_j10677288698373_2_alg».proof.Proof.Spec
import proofs.«145422_j10677288698373_2_alg».proof.Proof.Gen.KernelIdeal.Frame
import proofs.«145422_j10677288698373_2_alg».proof.Proof.LibRowsTimes
import proofs.«145422_j10677288698373_2_alg».proof.Proof.LibColumnJoin
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen Cert.EdgeNode

/-! ## The operations of the body, read at an entry -/

/-- A product of a 4000 × 64 array with a 64 × 64 matrix into the zero accumulator, at (r, c): the sum over k of
    a (r, k) · w (k, c). -/
theorem mm64_apply {φ₁ φ₂ : FTy} (a : FVec Ideal S4000x64 φ₁) (w : FVec Ideal S64x64 φ₂) (r : Fin 4000) (c : Fin 64) :
    matmul dot_S4000x64_S64x64_S4000x64_1_0_0_1_n_n none a w (constant S4000x64 .f32 0x00000000#32) (ix2 r c)
      = ∑ k : Fin 64, a (ix2 r k) * w (ix2 k c) :=
  RowsTimes.matmul_zero_apply _ rfl rfl rfl rfl rfl rfl rfl rfl none a w r c

/-- The same for the 4000 × 9 radial basis and a 9 × 64 matrix. -/
theorem mm9_apply {φ₁ φ₂ : FTy} (a : FVec Ideal S4000x9 φ₁) (w : FVec Ideal S9x64 φ₂) (r : Fin 4000) (c : Fin 64) :
    matmul dot_S4000x9_S9x64_S4000x64_1_0_0_1_n_n none a w (constant S4000x64 .f32 0x00000000#32) (ix2 r c)
      = ∑ k : Fin 9, a (ix2 r k) * w (ix2 k c) :=
  RowsTimes.matmul_zero_apply _ rfl rfl rfl rfl rfl rfl rfl rfl none a w r c

/-- A bias row [1, 64] spread over the 4000 rows reads, at (r, c), the bias at c. -/
theorem bias_apply (b : Vec Ideal S1x64 .f32) (r : Fin 4000) (c : Fin 64) :
    broadcastTo S4000x64 (shapeCast S1x64 b shapeCasts_S1x64_S1x64) broadcasts_S1x64_S4000x64 (ix2 r c)
      = b (ix2 (0 : Fin 1) c) := by
  rw [shapeCast_self]
  exact broadcastTo_1b_ab_apply b _ r c

/-- Rows 0 … 63 of the 192 × 64 weight. -/
theorem slice0_apply (w : Vec Ideal S192x64 .bf16) (k c : Fin 64) :
    extractStridedSlice S64x64 ![0, 0] (shapeCast S192x64 w shapeCasts_S192x64_S192x64) slices_S192x64_o0_0_S64x64 (ix2 k c)
      = w (ix2 (⟨k.val, by have := k.isLt; omega⟩ : Fin 192) c) := by
  rw [shapeCast_self]
  exact slice2_axis0_apply 0 w _ k c _ (Nat.zero_add _).symm

/-- Rows 64 … 127 of the 192 × 64 weight. -/
theorem slice64_apply (w : Vec Ideal S192x64 .bf16) (k c : Fin 64) :
    extractStridedSlice S64x64 ![64, 0] (shapeCast S192x64 w shapeCasts_S192x64_S192x64) slices_S192x64_o64_0_S64x64 (ix2 k c)
      = w (ix2 (⟨64 + k.val, by have := k.isLt; omega⟩ : Fin 192) c) := by
  rw [shapeCast_self]
  exact slice2_axis0_apply 64 w _ k c _ rfl

/-- Rows 128 … 191 of the 192 × 64 weight. -/
theorem slice128_apply (w : Vec Ideal S192x64 .bf16) (k c : Fin 64) :
    extractStridedSlice S64x64 ![128, 0] (shapeCast S192x64 w shapeCasts_S192x64_S192x64) slices_S192x64_o128_0_S64x64 (ix2 k c)
      = w (ix2 (⟨128 + k.val, by have := k.isLt; omega⟩ : Fin 192) c) := by
  rw [shapeCast_self]
  exact slice2_axis0_apply 128 w _ k c _ rfl

/-! ## The two layers of a branch, as the body writes them -/

/-- The 192 → 64 layer before its bias: the three 64-wide pieces a, b, c each times its 64 rows of the weight, added
    from the left. -/
def three (a b c : FVec Ideal S4000x64 .bf16) (w : Vec Ideal S192x64 .bf16) : FVec Ideal S4000x64 .f32 :=
  addf (addf
      (matmul (φ₂ := .bf16) dot_S4000x64_S64x64_S4000x64_1_0_0_1_n_n none a
        (extractStridedSlice S64x64 ![0, 0] (shapeCast S192x64 w shapeCasts_S192x64_S192x64) slices_S192x64_o0_0_S64x64)
        (constant S4000x64 .f32 0x00000000#32))
      (matmul (φ₂ := .bf16) dot_S4000x64_S64x64_S4000x64_1_0_0_1_n_n none b
        (extractStridedSlice S64x64 ![64, 0] (shapeCast S192x64 w shapeCasts_S192x64_S192x64) slices_S192x64_o64_0_S64x64)
        (constant S4000x64 .f32 0x00000000#32)))
    (matmul (φ₂ := .bf16) dot_S4000x64_S64x64_S4000x64_1_0_0_1_n_n none c
      (extractStridedSlice S64x64 ![128, 0] (shapeCast S192x64 w shapeCasts_S192x64_S192x64) slices_S192x64_o128_0_S64x64)
      (constant S4000x64 .f32 0x00000000#32))

/-- With its bias, at (r, k), it is the 192 → 64 layer on the rows x, y, z that a, b, c hold at r. -/
theorem three_dense3 (a b c : FVec Ideal S4000x64 .bf16) (w : Vec Ideal S192x64 .bf16) (bias : Vec Ideal S1x64 .f32)
    (r : Fin 4000) (k : Fin 64) (x y z : Fin 64 → EReal)
    (ha : ∀ q, a (ix2 r q) = x q) (hb : ∀ q, b (ix2 r q) = y q) (hc : ∀ q, c (ix2 r q) = z q) :
    three a b c w (ix2 r k) + bias (ix2 (0 : Fin 1) k) = dense3 w (fun c => bias (ix2 (0 : Fin 1) c)) x y z k := by
  unfold dense3 three
  refine congrArg (· + bias (ix2 (0 : Fin 1) k)) ?_
  refine (addf_apply _ _ _).trans (congrArg₂ (· + ·) ((addf_apply _ _ _).trans (congrArg₂ (· + ·) ?_ ?_)) ?_)
  · exact (mm64_apply a _ r k).trans (Finset.sum_congr rfl fun q _ => congrArg₂ (· * ·) (ha q) (slice0_apply w q k))
  · exact (mm64_apply b _ r k).trans (Finset.sum_congr rfl fun q _ => congrArg₂ (· * ·) (hb q) (slice64_apply w q k))
  · exact (mm64_apply c _ r k).trans (Finset.sum_congr rfl fun q _ => congrArg₂ (· * ·) (hc q) (slice128_apply w q k))

/-- From the 192 → 64 layer before its bias to the 64 → 64 layer with its bias: add the first bias, apply t · σ(t),
    multiply by the second weight, add the second bias. -/
def mlp (t : FVec Ideal S4000x64 .f32) (b0 : Vec Ideal S1x64 .f32) (w1 : Vec Ideal S64x64 .bf16) (b1 : Vec Ideal S1x64 .f32) :
    FVec Ideal S4000x64 .f32 :=
  addf
    (matmul (φ₂ := .bf16) dot_S4000x64_S64x64_S4000x64_1_0_0_1_n_n none
      (truncf .bf16
        (mulf (addf t (broadcastTo S4000x64 (shapeCast S1x64 b0 shapeCasts_S1x64_S1x64) broadcasts_S1x64_S4000x64))
          (logistic (addf t (broadcastTo S4000x64 (shapeCast S1x64 b0 shapeCasts_S1x64_S1x64) broadcasts_S1x64_S4000x64))))
        bitsLt_bf16_f32)
      (shapeCast S64x64 w1 shapeCasts_S64x64_S64x64) (constant S4000x64 .f32 0x00000000#32))
    (broadcastTo S4000x64 (shapeCast S1x64 b1 shapeCasts_S1x64_S1x64) broadcasts_S1x64_S4000x64)

/-- At (r, c) it is the 64 → 64 layer on t · σ(t) of the first layer's row h. -/
theorem mlp_apply (t : FVec Ideal S4000x64 .f32) (b0 : Vec Ideal S1x64 .f32) (w1 : Vec Ideal S64x64 .bf16)
    (b1 : Vec Ideal S1x64 .f32) (r : Fin 4000) (c : Fin 64) (h : Fin 64 → EReal)
    (ht : ∀ k, t (ix2 r k) + b0 (ix2 (0 : Fin 1) k) = h k) :
    mlp t b0 w1 b1 (ix2 r c) = dense w1 (fun c => b1 (ix2 (0 : Fin 1) c)) (fun k => silu (h k)) c := by
  unfold dense mlp
  refine (addf_apply _ _ _).trans (congrArg₂ (· + ·) ?_ (bias_apply b1 r c))
  refine (mm64_apply _ _ r c).trans (Finset.sum_congr rfl fun k _ => ?_)
  refine congrArg₂ (· * ·) ?_ (congrFun (shapeCast_self w1 _) (ix2 k c))
  have e : addf t (broadcastTo S4000x64 (shapeCast S1x64 b0 shapeCasts_S1x64_S1x64) broadcasts_S1x64_S4000x64) (ix2 r k) = h k :=
    (addf_apply _ _ _).trans ((congrArg (t (ix2 r k) + ·) (bias_apply b0 r k)).trans (ht k))
  exact congrArg silu e

/-! ## The intermediate values of the body at an entry -/

/-- The first endpoint's features, cast to the narrow format: the array itself. -/
theorem pay3_apply (x : Vec Ideal S4000x64 .f32) (r : Fin 4000) (q : Fin 64) : k0_pay3 x (ix2 r q) = x (ix2 r q) :=
  congrFun (shapeCast_self x _) (ix2 r q)

/-- The second endpoint's features, cast to the narrow format: the array itself. -/
theorem pay4_apply (x : Vec Ideal S4000x64 .f32) (r : Fin 4000) (q : Fin 64) : k0_pay4 x (ix2 r q) = x (ix2 r q) :=
  congrFun (shapeCast_self x _) (ix2 r q)

/-- The value branch of the edge block at (r, c): t · σ(t) of the second layer on t · σ(t) of the first. -/
theorem pay6_apply (x0 x1 x2 : Vec Ideal S4000x64 .f32) (w : Vec Ideal S192x64 .bf16) (b0 : Vec Ideal S1x64 .f32)
    (w1 : Vec Ideal S64x64 .bf16) (b1 : Vec Ideal S1x64 .f32) (r : Fin 4000) (c : Fin 64) :
    k0_pay6 x0 x1 x2 w b0 w1 b1 (ix2 r c)
      = silu (dense w1 (fun c => b1 (ix2 (0 : Fin 1) c))
          (fun k => silu (dense3 w (fun c => b0 (ix2 (0 : Fin 1) c))
            (row (M := 4000) (n := 64) x0 r) (row (M := 4000) (n := 64) x1 r) (row (M := 4000) (n := 64) x2 r) k)) c) :=
  congrArg silu (mlp_apply (three (k0_pay3 x0) (k0_pay4 x1) (k0_pay5 x2) w) b0 w1 b1 r c _
    (fun k => three_dense3 _ _ _ w b0 r k _ _ _ (pay3_apply x0 r) (pay4_apply x1 r) (fun _ => rfl)))

/-- The updated edge features at (r, c), from what the operands hold at row r: the old feature plus
    (value · σ(gate)) · (radial basis · radial weight). -/
theorem pay7_apply (v4 : Vec Ideal S4000x64 .f32) (v6 : FVec Ideal S4000x9 .bf16) (v7 v8 v9 : FVec Ideal S4000x64 .bf16)
    (v35 : FVec Ideal S4000x64 .f32) (w : Vec Ideal S192x64 .bf16) (b0 : Vec Ideal S1x64 .f32)
    (w1 : Vec Ideal S64x64 .bf16) (b1 : Vec Ideal S1x64 .f32) (wr : Vec Ideal S9x64 .bf16)
    (r : Fin 4000) (c : Fin 64) (x y z : Fin 64 → EReal) (rb : Fin 9 → EReal) (val : EReal)
    (h7 : ∀ q, v7 (ix2 r q) = x q) (h8 : ∀ q, v8 (ix2 r q) = y q) (h9 : ∀ q, v9 (ix2 r q) = z q)
    (h6 : ∀ q, v6 (ix2 r q) = rb q) (h4 : v4 (ix2 r c) = z c) (h35 : v35 (ix2 r c) = val) :
    k0_pay7 v4 v6 v7 v8 v9 v35 w b0 w1 b1 wr (ix2 r c)
      = z c + (val * Ideal.logistic (dense w1 (fun c => b1 (ix2 (0 : Fin 1) c))
          (fun k => silu (dense3 w (fun c => b0 (ix2 (0 : Fin 1) c)) x y z k)) c)) * radial wr rb c :=
  congrArg₂ (· + ·) h4 (congrArg₂ (· * ·)
    (congrArg₂ (· * ·) h35 (congrArg Ideal.logistic (mlp_apply (three v7 v8 v9 w) b0 w1 b1 r c _
      (fun k => three_dense3 v7 v8 v9 w b0 r k x y z h7 h8 h9))))
    ((mm9_apply v6 _ r c).trans (Finset.sum_congr rfl fun q _ =>
      congrArg₂ (· * ·) (h6 q) (congrFun (shapeCast_self wr _) (ix2 q c)))))

/-- The node block's first layer before its bias is the three-piece product of the two endpoints' features and the
    UPDATED edge features. -/
theorem pay9_eq (v4 : Vec Ideal S4000x64 .f32) (v6 : FVec Ideal S4000x9 .bf16) (v7 v8 v9 : FVec Ideal S4000x64 .bf16)
    (v35 : FVec Ideal S4000x64 .f32) (v36 : Vec Ideal S192x64 .bf16) (v46 : Vec Ideal S1x64 .f32)
    (v53 : Vec Ideal S64x64 .bf16) (v56 : Vec Ideal S1x64 .f32) (v62 : Vec Ideal S9x64 .bf16) (v68 : Vec Ideal S192x64 .bf16) :
    k0_pay9 v4 v6 v7 v8 v9 v35 v36 v46 v53 v56 v62 v68
      = three v7 v8 (k0_pay8 v4 v6 v7 v8 v9 v35 v36 v46 v53 v56 v62) v68 := rfl

/-- The node block's value · σ(gate) at (r, c), from what the operands hold at row r. -/
theorem pay10_apply (v7 v8 v67 : FVec Ideal S4000x64 .bf16) (v77 : FVec Ideal S4000x64 .f32) (b0 : Vec Ideal S1x64 .f32)
    (w1 : Vec Ideal S64x64 .bf16) (b1 : Vec Ideal S1x64 .f32) (gw0 : Vec Ideal S192x64 .bf16) (gb0 : Vec Ideal S1x64 .f32)
    (gw1 : Vec Ideal S64x64 .bf16) (gb1 : Vec Ideal S1x64 .f32)
    (r : Fin 4000) (c : Fin 64) (x y z l : Fin 64 → EReal)
    (h7 : ∀ q, v7 (ix2 r q) = x q) (h8 : ∀ q, v8 (ix2 r q) = y q) (h67 : ∀ q, v67 (ix2 r q) = z q)
    (h77 : ∀ k, v77 (ix2 r k) + b0 (ix2 (0 : Fin 1) k) = l k) :
    k0_pay10 v7 v8 v67 v77 b0 w1 b1 gw0 gb0 gw1 gb1 (ix2 r c)
      = silu (dense w1 (fun c => b1 (ix2 (0 : Fin 1) c)) (fun k => silu (l k)) c)
          * Ideal.logistic (dense gw1 (fun c => gb1 (ix2 (0 : Fin 1) c))
              (fun k => silu (dense3 gw0 (fun c => gb0 (ix2 (0 : Fin 1) c)) x y z k)) c) :=
  congrArg₂ (· * ·) (congrArg silu (mlp_apply v77 b0 w1 b1 r c l h77))
    (congrArg Ideal.logistic (mlp_apply (three v7 v8 v67 gw0) gb0 gw1 gb1 r c _
      (fun k => three_dense3 v7 v8 v67 gw0 gb0 r k x y z h7 h8 h67)))

/-- The stored block [updated edge features | message], at a column of its left half. -/
theorem pay1_left (v6 : FVec Ideal S4000x9 .bf16) (v66 v119 : FVec Ideal S4000x64 .f32) (wr : Vec Ideal S9x64 .bf16)
    (r : Fin 4000) (c : Fin 64) (j : Fin 128) (hj : j.val = c.val) :
    k0_pay1 v6 v66 v119 wr (ix2 r j) = v66 (ix2 r c) :=
  ColumnJoin.join_cols_left v66 _ concatenates_S4000x64_S4000x64_S4000x128_d1 r j c hj

/-- The stored block at a column of its right half: the node block's value · σ(gate) times
    (radial basis · radial weight). -/
theorem pay1_right (v6 : FVec Ideal S4000x9 .bf16) (v66 v119 : FVec Ideal S4000x64 .f32) (wr : Vec Ideal S9x64 .bf16)
    (r : Fin 4000) (c : Fin 64) (j : Fin 128) (hj : j.val = 64 + c.val) (rb : Fin 9 → EReal)
    (h6 : ∀ q, v6 (ix2 r q) = rb q) :
    k0_pay1 v6 v66 v119 wr (ix2 r j) = v119 (ix2 r c) * radial wr rb c :=
  (ColumnJoin.join_cols_right v66 _ concatenates_S4000x64_S4000x64_S4000x128_d1 r j c hj).trans ((mulf_apply _ _ _).trans
    (congrArg (v119 (ix2 r c) * ·) ((mm9_apply v6 _ r c).trans (Finset.sum_congr rfl fun q _ =>
      congrArg₂ (· * ·) (h6 q) (congrFun (shapeCast_self wr _) (ix2 q c))))))

/-! ## The block the body leaves -/

theorem hz : (![0, 0] : Fin 2 → Nat) = fun _ => 0 := funext fun a => by fin_cases a <;> rfl

/-- The updated edge features of row r at column q, as the body holds them (in either format). -/
theorem edge_apply (x0 x1 x2 : Vec Ideal S4000x64 .f32) (x3 : Vec Ideal S4000x9 .f32)
    (x4 : Vec Ideal S192x64 .bf16) (x5 : Vec Ideal S1x64 .f32) (x6 : Vec Ideal S64x64 .bf16) (x7 : Vec Ideal S1x64 .f32)
    (x8 : Vec Ideal S192x64 .bf16) (x9 : Vec Ideal S1x64 .f32) (x10 : Vec Ideal S64x64 .bf16) (x11 : Vec Ideal S1x64 .f32)
    (x12 : Vec Ideal S9x64 .bf16) (r : Fin 4000) (q : Fin 64) :
    k0_pay7 x2 (k0_pay2 x3) (k0_pay3 x0) (k0_pay4 x1) (k0_pay5 x2) (k0_pay6 x0 x1 x2 x4 x5 x6 x7) x8 x9 x10 x11 x12 (ix2 r q)
      = edgeRow (layerOfRows x4 x5 x6 x7 x8 x9 x10 x11 x12)
          (row (M := 4000) (n := 64) x0 r) (row (M := 4000) (n := 64) x1 r) (row (M := 4000) (n := 64) x2 r)
          (row (M := 4000) (n := 9) x3 r) q :=
  pay7_apply x2 (k0_pay2 x3) (k0_pay3 x0) (k0_pay4 x1) (k0_pay5 x2) (k0_pay6 x0 x1 x2 x4 x5 x6 x7) x8 x9 x10 x11 x12 r q
    (row (M := 4000) (n := 64) x0 r) (row (M := 4000) (n := 64) x1 r) (row (M := 4000) (n := 64) x2 r)
    (row (M := 4000) (n := 9) x3 r) _
    (pay3_apply x0 r) (pay4_apply x1 r) (fun _ => rfl) (fun _ => rfl) rfl (pay6_apply x0 x1 x2 x4 x5 x6 x7 r q)

/-- Columns 0 … 63 of the block the body leaves are the updated edge features. -/
theorem out_edge (x0 x1 x2 : Vec Ideal S4000x64 .f32) (x3 : Vec Ideal S4000x9 .f32)
    (x4 : Vec Ideal S192x64 .bf16) (x5 : Vec Ideal S1x64 .f32) (x6 : Vec Ideal S64x64 .bf16) (x7 : Vec Ideal S1x64 .f32)
    (x8 : Vec Ideal S192x64 .bf16) (x9 : Vec Ideal S1x64 .f32) (x10 : Vec Ideal S64x64 .bf16) (x11 : Vec Ideal S1x64 .f32)
    (x12 : Vec Ideal S9x64 .bf16)
    (x13 : Vec Ideal S192x64 .bf16) (x14 : Vec Ideal S1x64 .f32) (x15 : Vec Ideal S64x64 .bf16) (x16 : Vec Ideal S1x64 .f32)
    (x17 : Vec Ideal S192x64 .bf16) (x18 : Vec Ideal S1x64 .f32) (x19 : Vec Ideal S64x64 .bf16) (x20 : Vec Ideal S1x64 .f32)
    (x21 : Vec Ideal S9x64 .bf16)
    (r : Fin 4000) (c : Fin 64) (j : Fin 128) (hj : j.val = c.val) :
    Gen.out0_22 (F := Ideal) x0 x1 x2 x3 x4 x5 x6 x7 x8 x9 x10 x11 x12 x13 x14 x15 x16 x17 x18 x19 x20 x21 (ix2 r j)
      = edgeArr (layerOfRows x4 x5 x6 x7 x8 x9 x10 x11 x12) x0 x1 x2 x3 (ix2 r c) := by
  unfold Gen.out0_22
  rw [View.canon_unit_zero hz]
  simp only [View.ld_unit_zero (S := S4000x64) hz, View.ld_unit_zero (S := S4000x9) hz,
    View.ld_unit_zero (S := S192x64) hz, View.ld_unit_zero (S := S1x64) hz, View.ld_unit_zero (S := S64x64) hz,
    View.ld_unit_zero (S := S9x64) hz]
  refine (pay1_left _ _ _ _ r c j hj).trans ?_
  exact edge_apply x0 x1 x2 x3 x4 x5 x6 x7 x8 x9 x10 x11 x12 r c

/-- Columns 64 … 127 of the block the body leaves are the messages. -/
theorem out_mess (x0 x1 x2 : Vec Ideal S4000x64 .f32) (x3 : Vec Ideal S4000x9 .f32)
    (x4 : Vec Ideal S192x64 .bf16) (x5 : Vec Ideal S1x64 .f32) (x6 : Vec Ideal S64x64 .bf16) (x7 : Vec Ideal S1x64 .f32)
    (x8 : Vec Ideal S192x64 .bf16) (x9 : Vec Ideal S1x64 .f32) (x10 : Vec Ideal S64x64 .bf16) (x11 : Vec Ideal S1x64 .f32)
    (x12 : Vec Ideal S9x64 .bf16)
    (x13 : Vec Ideal S192x64 .bf16) (x14 : Vec Ideal S1x64 .f32) (x15 : Vec Ideal S64x64 .bf16) (x16 : Vec Ideal S1x64 .f32)
    (x17 : Vec Ideal S192x64 .bf16) (x18 : Vec Ideal S1x64 .f32) (x19 : Vec Ideal S64x64 .bf16) (x20 : Vec Ideal S1x64 .f32)
    (x21 : Vec Ideal S9x64 .bf16)
    (r : Fin 4000) (c : Fin 64) (j : Fin 128) (hj : j.val = 64 + c.val) :
    Gen.out0_22 (F := Ideal) x0 x1 x2 x3 x4 x5 x6 x7 x8 x9 x10 x11 x12 x13 x14 x15 x16 x17 x18 x19 x20 x21 (ix2 r j)
      = messArr (layerOfRows x4 x5 x6 x7 x8 x9 x10 x11 x12) (layerOfRows x13 x14 x15 x16 x17 x18 x19 x20 x21)
          x0 x1 x2 x3 (ix2 r c) := by
  unfold Gen.out0_22
  rw [View.canon_unit_zero hz]
  simp only [View.ld_unit_zero (S := S4000x64) hz, View.ld_unit_zero (S := S4000x9) hz,
    View.ld_unit_zero (S := S192x64) hz, View.ld_unit_zero (S := S1x64) hz, View.ld_unit_zero (S := S64x64) hz,
    View.ld_unit_zero (S := S9x64) hz]
  refine (pay1_right _ _ _ _ r c j hj (row (M := 4000) (n := 9) x3 r) (fun _ => rfl)).trans ?_
  have hE := edge_apply x0 x1 x2 x3 x4 x5 x6 x7 x8 x9 x10 x11 x12 r
  exact congrArg (· * radial x21 (row (M := 4000) (n := 9) x3 r) c)
    (pay10_apply (k0_pay3 x0) (k0_pay4 x1) _ _ x14 x15 x16 x17 x18 x19 x20 r c
      (row (M := 4000) (n := 64) x0 r) (row (M := 4000) (n := 64) x1 r) _ _
      (pay3_apply x0 r) (pay4_apply x1 r) hE
      (fun k => three_dense3 (k0_pay3 x0) (k0_pay4 x1) _ x13 x14 r k _ _ _ (pay3_apply x0 r) (pay4_apply x1 r) hE))

end Cert.KernelIdeal.Block

end
-- ==== Proof.KernelArray.lean ====
/-
  The kernel's packed output array after the run, at the ideal instance.

  Grid point t writes back the 4000 × 128 block of rows 4000·t … 4000·t + 3999: columns 0 … 63 the updated edge
  features of those edges, columns 64 … 127 their messages, both the row-wise functions of the specification applied
  to the rows of the per-edge arrays.  The 125 blocks tile the 500000 rows, so the array ends as ONE function of the
  arrays the region found; its two column halves are the specification's two whole-array functions.
-/
import proofs.«145422_j10677288698373_2_alg».proof.Proof.Spec
import proofs.«145422_j10677288698373_2_alg».proof.Proof.KernelWindows
import proofs.«145422_j10677288698373_2_alg».proof.Proof.KernelBlock

set_option maxRecDepth 16384

noncomputable section

namespace Cert.KernelIdeal.Packed

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Windows Cert.EdgeNode

variable (m : (ℓ : Loc nD τ sig) → Buf (Elt Ideal) ℓ)

/-- The edge block's parameters, as the region finds them. -/
def edgeParams (c : Dev nD) : Layer :=
  layerOfRows (V m c main_v14) (V m c main_v24) (V m c main_v15) (V m c main_v25) (V m c main_v16) (V m c main_v26)
    (V m c main_v17) (V m c main_v27) (V m c main_v18)

/-- The node block's parameters, as the region finds them. -/
def nodeParams (c : Dev nD) : Layer :=
  layerOfRows (V m c main_v19) (V m c main_v28) (V m c main_v20) (V m c main_v29) (V m c main_v21) (V m c main_v30)
    (V m c main_v22) (V m c main_v31) (V m c main_v23)

/-- The updated edge features of all edges. -/
def edgeOut (c : Dev nD) : Mat 500000 64 :=
  edgeArr (edgeParams m c) (V m c main_v6) (V m c main_v13) (V m c main_arg19) (V m c main_arg20)

/-- The messages of all edges. -/
def messOut (c : Dev nD) : Mat 500000 64 :=
  messArr (edgeParams m c) (nodeParams m c) (V m c main_v6) (V m c main_v13) (V m c main_arg19) (V m c main_arg20)

/-- The packed array: [updated edge features | messages]. -/
def packed (c : Dev nD) : S500000x128.Idx → EReal := fun i =>
  if h : (i 1).val < 64 then edgeOut m c (ix2 (⟨(i 0).val, (i 0).isLt⟩ : Fin 500000) (⟨(i 1).val, h⟩ : Fin 64))
  else messOut m c (ix2 (⟨(i 0).val, (i 0).isLt⟩ : Fin 500000) (⟨(i 1).val - 64, by have h1 : (i 1).val < 128 := (i 1).isLt; omega⟩ : Fin 64))

theorem packed_left (c : Dev nD) (e : Fin 500000) (j : Fin 128) (k : Fin 64) (hj : j.val = k.val) :
    packed m c (ix2 e j) = edgeOut m c (ix2 e k) := by
  have h : ((ix2 e j : S500000x128.Idx) 1).val < 64 := by show j.val < 64; have := k.isLt; omega
  unfold packed
  rw [dif_pos h]
  exact congrArg (edgeOut m c) (congrArg (ix2 e) (Fin.ext hj))

theorem packed_right (c : Dev nD) (e : Fin 500000) (j : Fin 128) (k : Fin 64) (hj : j.val = 64 + k.val) :
    packed m c (ix2 e j) = messOut m c (ix2 e k) := by
  have h : ¬ ((ix2 e j : S500000x128.Idx) 1).val < 64 := by show ¬ j.val < 64; omega
  unfold packed
  rw [dif_neg h]
  exact congrArg (messOut m c) (congrArg (ix2 e) (Fin.ext (by show j.val - 64 = k.val; omega)))

/-- Two row-wise evaluations agree when the rows and the parameters do. -/
theorem edgeArr_congr (P P' : Layer) (vi vj ef : Mat 4000 64) (rbf : Mat 4000 9) (VI VJ EF : Mat 500000 64) (RBF : Mat 500000 9)
    (r : Fin 4000) (e : Fin 500000) (k : Fin 64) (hP : P = P')
    (h0 : ∀ q, vi (ix2 r q) = VI (ix2 e q)) (h1 : ∀ q, vj (ix2 r q) = VJ (ix2 e q)) (h2 : ∀ q, ef (ix2 r q) = EF (ix2 e q))
    (h3 : ∀ q, rbf (ix2 r q) = RBF (ix2 e q)) :
    edgeArr P vi vj ef rbf (ix2 r k) = edgeArr P' VI VJ EF RBF (ix2 e k) := by
  subst hP
  rw [edgeArr_apply, edgeArr_apply]
  have e0 : row vi r = row VI e := funext h0
  have e1 : row vj r = row VJ e := funext h1
  have e2 : row ef r = row EF e := funext h2
  have e3 : row rbf r = row RBF e := funext h3
  rw [e0, e1, e2, e3]

theorem messArr_congr (P P' Q Q' : Layer) (vi vj ef : Mat 4000 64) (rbf : Mat 4000 9) (VI VJ EF : Mat 500000 64) (RBF : Mat 500000 9)
    (r : Fin 4000) (e : Fin 500000) (k : Fin 64) (hP : P = P') (hQ : Q = Q')
    (h0 : ∀ q, vi (ix2 r q) = VI (ix2 e q)) (h1 : ∀ q, vj (ix2 r q) = VJ (ix2 e q)) (h2 : ∀ q, ef (ix2 r q) = EF (ix2 e q))
    (h3 : ∀ q, rbf (ix2 r q) = RBF (ix2 e q)) :
    messArr P Q vi vj ef rbf (ix2 r k) = messArr P' Q' VI VJ EF RBF (ix2 e k) := by
  subst hP; subst hQ
  rw [messArr_apply, messArr_apply]
  have e0 : row vi r = row VI e := funext h0
  have e1 : row vj r = row VJ e := funext h1
  have e2 : row ef r = row EF e := funext h2
  have e3 : row rbf r = row RBF e := funext h3
  rw [e0, e1, e2, e3]

/-- The parameter blocks at any point are the parameter arrays. -/
theorem edgeParams_blk (c : Dev nD) (t : Fin cfg0.N) :
    layerOfRows (iblk (F := Ideal) m c 4 t) (iblk (F := Ideal) m c 5 t) (iblk (F := Ideal) m c 6 t) (iblk (F := Ideal) m c 7 t)
      (iblk (F := Ideal) m c 8 t) (iblk (F := Ideal) m c 9 t) (iblk (F := Ideal) m c 10 t) (iblk (F := Ideal) m c 11 t)
      (iblk (F := Ideal) m c 12 t) = edgeParams m c := by
  unfold edgeParams
  rw [blk4 m c t, blk5 m c t, blk6 m c t, blk7 m c t, blk8 m c t, blk9 m c t, blk10 m c t, blk11 m c t, blk12 m c t]

theorem nodeParams_blk (c : Dev nD) (t : Fin cfg0.N) :
    layerOfRows (iblk (F := Ideal) m c 13 t) (iblk (F := Ideal) m c 14 t) (iblk (F := Ideal) m c 15 t) (iblk (F := Ideal) m c 16 t)
      (iblk (F := Ideal) m c 17 t) (iblk (F := Ideal) m c 18 t) (iblk (F := Ideal) m c 19 t) (iblk (F := Ideal) m c 20 t)
      (iblk (F := Ideal) m c 21 t) = nodeParams m c := by
  unfold nodeParams
  rw [blk13 m c t, blk14 m c t, blk15 m c t, blk16 m c t, blk17 m c t, blk18 m c t, blk19 m c t, blk20 m c t, blk21 m c t]

/-- WHAT POINT t WRITES BACK is block t of the packed array. -/
theorem flushed_eq (c : Dev nD) (t : Fin cfg0.N) :
    (dats m 0 c).flushed 22 t = ((cfg0.win 22).blk t).view.read (Elt Ideal) (packed m c) := by
  show (cfg0.win 22).cut (grid0.coords t) ((dats m 0 c).after 22 t) = _
  rw [after0_22]
  funext y
  obtain ⟨r, j, rfl⟩ : ∃ (r : Fin 4000) (j : Fin 128), y = ix2 r j := ⟨y 0, y 1, eq_ix2 y⟩
  have ht : t.val < 125 := by have h1 : t.val < cfg0.N := t.isLt; have hN : cfg0.N = 125 := N_0; omega
  have hr : r.val < 4000 := r.isLt
  have hemb : ((cfg0.win 22).blk t).view.emb (ix2 r j) = (ix2 (⟨4000 * t.val + r.val, by omega⟩ : Fin 500000) j : S500000x128.Idx) := by
    obtain ⟨h0, h1⟩ := index_22 t
    funext a; apply Fin.ext
    match a with
    | ⟨0, _⟩ => show win0_22.index t (0 : Fin 2) * 4000 + 1 * r.val = 4000 * t.val + r.val; omega
    | ⟨1, _⟩ => show win0_22.index t (1 : Fin 2) * 128 + 1 * j.val = j.val; omega
  show out0_22 (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t) (iblk (F := Ideal) m c 15 t) (iblk (F := Ideal) m c 16 t) (iblk (F := Ideal) m c 17 t) (iblk (F := Ideal) m c 18 t) (iblk (F := Ideal) m c 19 t) (iblk (F := Ideal) m c 20 t) (iblk (F := Ideal) m c 21 t) (ix2 r j)
    = packed m c (((cfg0.win 22).blk t).view.emb (ix2 r j))
  rw [hemb]
  by_cases hj : j.val < 64
  · refine (Block.out_edge (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t) (iblk (F := Ideal) m c 15 t) (iblk (F := Ideal) m c 16 t) (iblk (F := Ideal) m c 17 t) (iblk (F := Ideal) m c 18 t) (iblk (F := Ideal) m c 19 t) (iblk (F := Ideal) m c 20 t) (iblk (F := Ideal) m c 21 t) r ⟨j.val, hj⟩ j rfl).trans ?_
    rw [packed_left m c _ j ⟨j.val, hj⟩ rfl]
    exact edgeArr_congr _ _ _ _ _ _ _ _ _ _ r _ _ (edgeParams_blk m c t)
      (fun q => blk0 m c t r q _ rfl) (fun q => blk1 m c t r q _ rfl) (fun q => blk2 m c t r q _ rfl) (fun q => blk3 m c t r q _ rfl)
  · have hj' : j.val < 128 := j.isLt
    refine (Block.out_mess (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t) (iblk (F := Ideal) m c 15 t) (iblk (F := Ideal) m c 16 t) (iblk (F := Ideal) m c 17 t) (iblk (F := Ideal) m c 18 t) (iblk (F := Ideal) m c 19 t) (iblk (F := Ideal) m c 20 t) (iblk (F := Ideal) m c 21 t) r ⟨j.val - 64, by omega⟩ j (by show j.val = 64 + (j.val - 64); omega)).trans ?_
    rw [packed_right m c _ j ⟨j.val - 64, by omega⟩ (by show j.val = 64 + (j.val - 64); omega)]
    exact messArr_congr _ _ _ _ _ _ _ _ _ _ _ _ r _ _ (edgeParams_blk m c t) (nodeParams_blk m c t)
      (fun q => blk0 m c t r q _ rfl) (fun q => blk1 m c t r q _ rfl) (fun q => blk2 m c t r q _ rfl) (fun q => blk3 m c t r q _ rfl)

/-- An index of the packed array is in point t's block iff each coordinate is in the block's range. -/
theorem mem_blk (t : Fin cfg0.N) (i : S500000x128.Idx) :
    i ∈ ((cfg0.win 22).blk t).view.set ↔ ∀ a : Fin 2, win0_22.index t a * S4000x128.size a ≤ (i a).val
      ∧ (i a).val < win0_22.index t a * S4000x128.size a + S4000x128.size a := by
  show i ∈ ((View.whole main_v32).slice (win0_22.rect t)).set ↔ _
  rw [View.set_slice_whole, Rect.mem_set_unit]
  exact Iff.rfl

/-- Row e lies in the block of point e / 4000: the blocks tile the array. -/
theorem cover (i : S500000x128.Idx) :
    ∃ t : Fin cfg0.N, (cfg0.win 22).flush t = true ∧ i ∈ ((cfg0.win 22).blk t).view.set := by
  have hi0 : (i 0).val < 500000 := (i 0).isLt
  have hi1 : (i 1).val < 128 := (i 1).isLt
  have hN : cfg0.N = 125 := N_0
  let t : Fin cfg0.N := ⟨(i 0).val / 4000, by rw [hN]; omega⟩
  refine ⟨t, flush0_22 t, ?_⟩
  rw [mem_blk]
  obtain ⟨h0, h1⟩ := index_22 t
  have ht : t.val = (i 0).val / 4000 := rfl
  intro a
  match a with
  | ⟨0, _⟩ =>
    show win0_22.index t (0 : Fin 2) * 4000 ≤ (i 0).val ∧ (i 0).val < win0_22.index t (0 : Fin 2) * 4000 + 4000
    omega
  | ⟨1, _⟩ =>
    show win0_22.index t (1 : Fin 2) * 128 ≤ (i 1).val ∧ (i 1).val < win0_22.index t (1 : Fin 2) * 128 + 128
    omega

/-- THE ARRAY after the run. -/
theorem final (c : Dev nD) : (dats m 0 c).arrAt 22 cfg0.N = packed m c :=
  (dats m 0 c).arrAt_eq_of_cover 22 (packed m c) (fun t _ => flushed_eq m c t) cover

/-! ## Its two halves -/

theorem left_half (c : Dev nD) :
    extractStridedSlice S500000x64 ![0, 0] (packed m c) slices_S500000x128_S500000x64_0_0 = edgeOut m c := by
  funext i
  obtain ⟨e, k, rfl⟩ : ∃ (e : Fin 500000) (k : Fin 64), i = ix2 e k := ⟨i 0, i 1, eq_ix2 i⟩
  have hk : k.val < 64 := k.isLt
  rw [slice2_axis1_apply 0 (packed m c) slices_S500000x128_S500000x64_0_0 e k ⟨k.val, by omega⟩ (by show k.val = 0 + k.val; omega)]
  exact packed_left m c e _ k rfl

theorem right_half (c : Dev nD) :
    extractStridedSlice S500000x64 ![0, 64] (packed m c) slices_S500000x128_S500000x64_0_64 = messOut m c := by
  funext i
  obtain ⟨e, k, rfl⟩ : ∃ (e : Fin 500000) (k : Fin 64), i = ix2 e k := ⟨i 0, i 1, eq_ix2 i⟩
  have hk : k.val < 64 := k.isLt
  rw [slice2_axis1_apply 64 (packed m c) slices_S500000x128_S500000x64_0_64 e k ⟨64 + k.val, by omega⟩ rfl]
  exact packed_right m c e _ k rfl

end Cert.KernelIdeal.Packed

end
-- ==== Proof.KernelRun.lean ====
/-
  The kernel program's run at the ideal instance, read to the end: after the region the program cuts the packed array
  into its two halves, returns the left one (the updated edge features) and adds to the node features the sum, node
  by node, of the messages of the edges that point at the node (a scatter-add of the right half at the destination
  indices into zeros).
-/
import proofs.«145422_j10677288698373_2_alg».proof.Proof.Spec
import proofs.«145422_j10677288698373_2_alg».proof.Proof.KernelArray

set_option maxRecDepth 16384

noncomputable section

namespace Cert.KernelIdeal.Packed

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Windows Cert.EdgeNode

variable (m : (ℓ : Loc nD τ sig) → Buf (Elt Ideal) ℓ) (ρ : Dev nD → PrngReg)

/-- Node features plus, at each node, the sum of the messages of the edges whose destination it is. -/
def aggregate (nf : (⟨S50000x64, .f32⟩ : BufTy).Contents (Elt Ideal)) (dst : (⟨S500000, .i32⟩ : BufTy).Contents (Elt Ideal))
    (ms : (⟨S500000x64, .f32⟩ : BufTy).Contents (Elt Ideal)) : (⟨S50000x64, .f32⟩ : BufTy).Contents (Elt Ideal) :=
  addf nf (Host.scatterAdd (F := Ideal) scatter_S50000x64_S500000x1_S500000x64_1_0_0_1
    (broadcastInDim S50000x64 ![] bcast_S_S50000x64 (constant (F := Ideal) S_ .f32 0x00000000#32))
    (broadcastInDim S500000x1 ![0] bcast_S500000_S500000x1_0 dst) ms)

/-- The packed array is where the lines after the region find it. -/
theorem tail_packed (c : Dev nD) :
    Pipeline.withArrays spec0 c (V0 m c) (fun w => (dats m 0 c).arrAt w cfg0.N) (Proc.devRef .tc main_v32) = packed m c :=
  (Pipeline.withArrays_arr spec0 launch0.win.arr_inj c _ _ 22).trans (final m c)

theorem tail_arg18 (c : Dev nD) :
    Pipeline.withArrays spec0 c (V0 m c) (fun w => (dats m 0 c).arrAt w cfg0.N) (Proc.devRef .tc main_arg18)
      = m ((c : Thread nD τ).loc main_arg18) :=
  (Pipeline.withArrays_of_ne _ c (V0 m c) _ main_arg18 (by exact (by decide : ∀ w, Pipeline.arrRef spec0 w ≠ main_arg18))).trans
    (V_main_arg18 m c)

theorem tail_arg22 (c : Dev nD) :
    Pipeline.withArrays spec0 c (V0 m c) (fun w => (dats m 0 c).arrAt w cfg0.N) (Proc.devRef .tc main_arg22)
      = m ((c : Thread nD τ).loc main_arg22) :=
  (Pipeline.withArrays_of_ne _ c (V0 m c) _ main_arg22 (by exact (by decide : ∀ w, Pipeline.arrRef spec0 w ≠ main_arg22))).trans
    (V_main_arg22 m c)

/-- The first result: the left half of the packed array. -/
theorem tail_v33 (c : Dev nD) :
    Pipeline.afterTail₀ cfgs (dats m) 0 (V0 m) [hostOps1] c main_v33 = edgeOut m c := by
  unfold Pipeline.afterTail₀
  show StableHlo.after hostOps1 _ (Proc.devRef .tc main_v33) = _
  after_results
  rw [tail_packed m c]
  exact left_half m c

/-- The second result: the node features plus the aggregated right half. -/
theorem tail_v38 (c : Dev nD) :
    Pipeline.afterTail₀ cfgs (dats m) 0 (V0 m) [hostOps1] c main_v38
      = aggregate (m ((c : Thread nD τ).loc main_arg18)) (m ((c : Thread nD τ).loc main_arg22)) (messOut m c) := by
  unfold Pipeline.afterTail₀
  show StableHlo.after hostOps1 _ (Proc.devRef .tc main_v38) = _
  after_results
  rw [tail_packed m c, tail_arg18 m c, tail_arg22 m c, right_half m c]
  rfl

/-- THE RUN: every weakly fair execution ends with the two results at the specification's functions of the arrays the
    region found, and the arguments unchanged. -/
theorem run : θ_run defs (onTc (τ := τ) (main (F := Ideal))) ⟨m, fun _ => 0, ρ⟩ (fun r => ∀ c : Dev nD,
      r.2.mem ((c.tc : Thread nD τ).loc main_v33) = edgeOut m c
      ∧ r.2.mem ((c.tc : Thread nD τ).loc main_v38)
          = aggregate (m ((c : Thread nD τ).loc main_arg18)) (m ((c : Thread nD τ).loc main_arg22)) (messOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (((h c).2 main_v33 (Pipeline.mem_restRefs_of main_v33 (by decide) (by decide))).trans (tail_v33 m c)),
      (((h c).2 main_v38 (Pipeline.mem_restRefs_of main_v38 (by decide) (by decide))).trans (tail_v38 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      ((h c).1 2).trans (((dats m 0 c).arrAt_in 2 rfl _).trans ((A_eq m c 2).trans (V_main_arg19 m c))),
      ((h c).1 3).trans (((dats m 0 c).arrAt_in 3 rfl _).trans ((A_eq m c 3).trans (V_main_arg20 m c))),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c))⟩)
    (run_main m ρ)

end Cert.KernelIdeal.Packed

end
-- ==== Proof.LibThreePieces.lean ====
/-
  Three equal pieces joined, read at an index. For any element type and any extents:
  three [R, n] matrices joined along the columns into [R, N] read, at (r, j), the first piece at (r, c) when j = c,
  the second when j = n + c and the third when j = n + n + c (`cols3_first`, `cols3_second`, `cols3_third`);
  three [n] vectors joined end to end into [N] read likewise at j (`vec3_first`, `vec3_second`, `vec3_third`).
  The extents are related only through the concatenation's own side condition, which the caller holds.
-/
import Idealize.ShloMosaic.Lib.Pipeline.Value
import Idealize.ShloMosaic.Lib.ValueIdx

noncomputable section

namespace Cert.ThreePieces

open Idealize.ShloMosaic Idealize.ShloMosaic.ValueIdx

variable {α : Type}

section Columns
variable {R n N : Nat} (A B C : (⟨2, ![R, n]⟩ : Shape).Idx → α)
  (h : Shape.Concatenates [(⟨2, ![R, n]⟩ : Shape), ⟨2, ![R, n]⟩, ⟨2, ![R, n]⟩] ⟨2, ![R, N]⟩ 1)

private theorem off_axis (r : Fin R) (c : Fin n) (j : Fin N) :
    ∀ b : Fin (⟨2, ![R, n]⟩ : Shape).rank, b.cast (rfl : (⟨2, ![R, n]⟩ : Shape).rank = (⟨2, ![R, N]⟩ : Shape).rank) ≠ (1 : Fin 2) →
      ((ix2 r c : (⟨2, ![R, n]⟩ : Shape).Idx) b).val = ((ix2 r j : (⟨2, ![R, N]⟩ : Shape).Idx) (b.cast rfl)).val := fun b hb => by
  match b with
  | ⟨0, _⟩ => rfl
  | ⟨1, _⟩ => exact absurd (Fin.ext rfl) hb

/-- Columns 0 … n − 1 of the join are the first piece. -/
theorem cols3_first (r : Fin R) (c : Fin n) (j : Fin N) (hj : j.val = c.val) :
    concatenate (⟨2, ![R, N]⟩ : Shape) 1 [⟨⟨2, ![R, n]⟩, A⟩, ⟨⟨2, ![R, n]⟩, B⟩, ⟨⟨2, ![R, n]⟩, C⟩] h (ix2 r j) = A (ix2 r c) :=
  concatenate_apply_piece 1 [⟨⟨2, ![R, n]⟩, A⟩, ⟨⟨2, ![R, n]⟩, B⟩, ⟨⟨2, ![R, n]⟩, C⟩] h (ix2 r j) 0 (by show 0 < 3; omega) ⟨2, ![R, n]⟩ A rfl rfl 0 rfl (ix2 r c) (off_axis r c j)
    (by show 0 + c.val = j.val; omega)

/-- Columns n … 2n − 1 are the second piece. -/
theorem cols3_second (r : Fin R) (c : Fin n) (j : Fin N) (hj : j.val = n + c.val) :
    concatenate (⟨2, ![R, N]⟩ : Shape) 1 [⟨⟨2, ![R, n]⟩, A⟩, ⟨⟨2, ![R, n]⟩, B⟩, ⟨⟨2, ![R, n]⟩, C⟩] h (ix2 r j) = B (ix2 r c) :=
  concatenate_apply_piece 1 [⟨⟨2, ![R, n]⟩, A⟩, ⟨⟨2, ![R, n]⟩, B⟩, ⟨⟨2, ![R, n]⟩, C⟩] h (ix2 r j) 1 (by show 1 < 3; omega) ⟨2, ![R, n]⟩ B rfl rfl (n + 0) rfl (ix2 r c) (off_axis r c j)
    (by show n + 0 + c.val = j.val; omega)

/-- Columns 2n … 3n − 1 are the third piece. -/
theorem cols3_third (r : Fin R) (c : Fin n) (j : Fin N) (hj : j.val = n + n + c.val) :
    concatenate (⟨2, ![R, N]⟩ : Shape) 1 [⟨⟨2, ![R, n]⟩, A⟩, ⟨⟨2, ![R, n]⟩, B⟩, ⟨⟨2, ![R, n]⟩, C⟩] h (ix2 r j) = C (ix2 r c) :=
  concatenate_apply_piece 1 [⟨⟨2, ![R, n]⟩, A⟩, ⟨⟨2, ![R, n]⟩, B⟩, ⟨⟨2, ![R, n]⟩, C⟩] h (ix2 r j) 2 (by show 2 < 3; omega) ⟨2, ![R, n]⟩ C rfl rfl (n + (n + 0)) rfl (ix2 r c) (off_axis r c j)
    (by show n + (n + 0) + c.val = j.val; omega)

end Columns

section Vectors
variable {n N : Nat} (a b c : (⟨1, ![n]⟩ : Shape).Idx → α)
  (h : Shape.Concatenates [(⟨1, ![n]⟩ : Shape), ⟨1, ![n]⟩, ⟨1, ![n]⟩] ⟨1, ![N]⟩ 0)

private theorem no_other_axis (e : Fin n) (j : Fin N) :
    ∀ d : Fin (⟨1, ![n]⟩ : Shape).rank, d.cast (rfl : (⟨1, ![n]⟩ : Shape).rank = (⟨1, ![N]⟩ : Shape).rank) ≠ (0 : Fin 1) →
      ((ix1 e : (⟨1, ![n]⟩ : Shape).Idx) d).val = ((ix1 j : (⟨1, ![N]⟩ : Shape).Idx) (d.cast rfl)).val := fun d hd => by
  match d with
  | ⟨0, _⟩ => exact absurd (Fin.ext rfl) hd

/-- Entries 0 … n − 1 of the join are the first piece. -/
theorem vec3_first (e : Fin n) (j : Fin N) (hj : j.val = e.val) :
    concatenate (⟨1, ![N]⟩ : Shape) 0 [⟨⟨1, ![n]⟩, a⟩, ⟨⟨1, ![n]⟩, b⟩, ⟨⟨1, ![n]⟩, c⟩] h (ix1 j) = a (ix1 e) :=
  concatenate_apply_piece 0 [⟨⟨1, ![n]⟩, a⟩, ⟨⟨1, ![n]⟩, b⟩, ⟨⟨1, ![n]⟩, c⟩] h (ix1 j) 0 (by show 0 < 3; omega) ⟨1, ![n]⟩ a rfl rfl 0 rfl (ix1 e) (no_other_axis e j)
    (by show 0 + e.val = j.val; omega)

/-- Entries n … 2n − 1 are the second piece. -/
theorem vec3_second (e : Fin n) (j : Fin N) (hj : j.val = n + e.val) :
    concatenate (⟨1, ![N]⟩ : Shape) 0 [⟨⟨1, ![n]⟩, a⟩, ⟨⟨1, ![n]⟩, b⟩, ⟨⟨1, ![n]⟩, c⟩] h (ix1 j) = b (ix1 e) :=
  concatenate_apply_piece 0 [⟨⟨1, ![n]⟩, a⟩, ⟨⟨1, ![n]⟩, b⟩, ⟨⟨1, ![n]⟩, c⟩] h (ix1 j) 1 (by show 1 < 3; omega) ⟨1, ![n]⟩ b rfl rfl (n + 0) rfl (ix1 e) (no_other_axis e j)
    (by show n + 0 + e.val = j.val; omega)

/-- Entries 2n … 3n − 1 are the third piece. -/
theorem vec3_third (e : Fin n) (j : Fin N) (hj : j.val = n + n + e.val) :
    concatenate (⟨1, ![N]⟩ : Shape) 0 [⟨⟨1, ![n]⟩, a⟩, ⟨⟨1, ![n]⟩, b⟩, ⟨⟨1, ![n]⟩, c⟩] h (ix1 j) = c (ix1 e) :=
  concatenate_apply_piece 0 [⟨⟨1, ![n]⟩, a⟩, ⟨⟨1, ![n]⟩, b⟩, ⟨⟨1, ![n]⟩, c⟩] h (ix1 j) 2 (by show 2 < 3; omega) ⟨1, ![n]⟩ c rfl rfl (n + (n + 0)) rfl (ix1 e) (no_other_axis e j)
    (by show n + (n + 0) + e.val = j.val; omega)

end Vectors

end Cert.ThreePieces

end
-- ==== Proof.RefValueA.lean ====
/-
  The steps the reference program is made of, each read at one index and over arbitrary operands:
  the number one, the logistic function and t · σ(t) spelt with a negation, an exponential, an addition and a division;
  a product of the row [x | y | z] (three 64-wide pieces joined) with a 192 × 64 weight plus a bias, as the
  three partial products added; a product of a 64-wide row with a 64 × 64 weight plus a bias; and the radial product.
-/
import proofs.«145422_j10677288698373_2_alg».proof.Proof.Gen.ReferenceIdeal.Run
import proofs.«145422_j10677288698373_2_alg».proof.Proof.Gen.ReferenceIdeal.Read
import proofs.«145422_j10677288698373_2_alg».proof.Proof.Spec
import proofs.«145422_j10677288698373_2_alg».proof.Proof.LibThreePieces
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.EdgeNode

/-- The pattern 0x3F800000 denotes the number 1. -/
theorem one_bits : FloatOps.ofBits (F := Ideal) .f32 0x3F800000#32 = 1 := by
  show Ideal.ofBits .f32 0x3F800000#32 = 1
  simp [Ideal.ofBits, Ideal.ieee, -EReal.coe_mul]; norm_num

/-- 1 / (1 + e^(−t)) is the logistic function. -/
theorem sigm_pt (t : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf t)))
      = Ideal.logistic t := by
  rw [one_bits]; rfl

/-- t · (1 / (1 + e^(−t))) is t · σ(t). -/
theorem silu_pt (t : Ideal .f32) :
    FloatOps.mulf t (FloatOps.hostDivf (FloatOps.ofBits (F := Ideal) .f32 0x3F800000#32)
        (FloatOps.addf (FloatOps.ofBits (F := Ideal) .f32 0x3F800000#32) (FloatOps.hostUnary .exp (FloatOps.hostNegf t))))
      = silu t := by
  rw [sigm_pt]; rfl

/-- The joined row [A e | B e | C e] times a 192 × 64 weight, plus the bias: the three partial products added. -/
theorem dense3_stage (w : (⟨S192x64, .f32⟩ : BufTy).Contents (Elt Ideal)) (b : (⟨S64, .f32⟩ : BufTy).Contents (Elt Ideal))
    (A B C : (⟨S500000x64, .f32⟩ : BufTy).Contents (Elt Ideal))
    (h : Shape.Concatenates [S500000x64, S500000x64, S500000x64] S500000x192 1)
    (e : Fin 500000) (c : Fin 64)
    (li : Fin 192 → S500000x192.Idx) (ri : Fin 192 → S192x64.Idx) (bi : S64.Idx)
    (hli : ∀ k, li k = ix2 e k) (hri : ∀ k, ri k = ix2 k c) (hbi : bi = ix1 c) :
    FloatOps.addf (F := Ideal) (φ := .f32) (∑ k : Fin 192, concatenate S500000x192 1 [⟨S500000x64, A⟩, ⟨S500000x64, B⟩, ⟨S500000x64, C⟩] h (li k) * w (ri k)) (b bi)
      = dense3 w (fun c => b (ix1 c)) (row A e) (row B e) (row C e) c := by
  subst hbi
  rw [← dense3_of_joined w (fun c => b (ix1 c)) (row A e) (row B e) (row C e) c
    (fun j => concatenate S500000x192 1 [⟨S500000x64, A⟩, ⟨S500000x64, B⟩, ⟨S500000x64, C⟩] h (ix2 e j))
    (fun k => Cert.ThreePieces.cols3_first A B C h e k _ rfl)
    (fun k => Cert.ThreePieces.cols3_second A B C h e k _ rfl)
    (fun k => Cert.ThreePieces.cols3_third A B C h e k _ rfl)]
  refine congrArg (fun s : EReal => s + b (ix1 c)) ?_
  exact Finset.sum_congr rfl fun k _ => by rw [hli k, hri k]

/-- A 64-wide row times a 64 × 64 weight, plus the bias. -/
theorem dense_stage (w : (⟨S64x64, .f32⟩ : BufTy).Contents (Elt Ideal)) (b : (⟨S64, .f32⟩ : BufTy).Contents (Elt Ideal))
    (H : (⟨S500000x64, .f32⟩ : BufTy).Contents (Elt Ideal)) (g : Fin 64 → EReal)
    (e : Fin 500000) (c : Fin 64)
    (li : Fin 64 → S500000x64.Idx) (ri : Fin 64 → S64x64.Idx) (bi : S64.Idx)
    (hli : ∀ k, li k = ix2 e k) (hri : ∀ k, ri k = ix2 k c) (hbi : bi = ix1 c)
    (hg : ∀ k, H (ix2 e k) = g k) :
    FloatOps.addf (F := Ideal) (φ := .f32) (∑ k : Fin 64, H (li k) * w (ri k)) (b bi) = dense w (fun c => b (ix1 c)) g c := by
  subst hbi
  refine congrArg (fun s : EReal => s + b (ix1 c)) ?_
  exact Finset.sum_congr rfl fun k _ => by rw [hli k, hri k, hg k]

/-- The radial basis row times the 9 × 64 weight. -/
theorem radial_stage (w : (⟨S9x64, .f32⟩ : BufTy).Contents (Elt Ideal)) (rb : (⟨S500000x9, .f32⟩ : BufTy).Contents (Elt Ideal))
    (e : Fin 500000) (c : Fin 64) (li : Fin 9 → S500000x9.Idx) (ri : Fin 9 → S9x64.Idx)
    (hli : ∀ k, li k = ix2 e k) (hri : ∀ k, ri k = ix2 k c) :
    (∑ k : Fin 9, rb (li k) * w (ri k)) = radial w (row rb e) c :=
  Finset.sum_congr rfl fun k _ => by rw [hli k, hri k]; rfl

end Cert.ReferenceIdeal.RefValue

end
-- ==== Proof.RefValueB.lean ====
/-
  The edge update of the reference program, stage by stage at one index (e, c): the value branch
  silu(dense(silu(dense3 …))), the gate branch σ(dense(silu(dense3 …))), the radial product, and their product added to
  the edge features. Every stage is stated over the program's own stages and proved from the stage before it.
-/
import proofs.«145422_j10677288698373_2_alg».proof.Proof.Gen.ReferenceIdeal.Run
import proofs.«145422_j10677288698373_2_alg».proof.Proof.Gen.ReferenceIdeal.Read
import proofs.«145422_j10677288698373_2_alg».proof.Proof.Spec
import proofs.«145422_j10677288698373_2_alg».proof.Proof.LibThreePieces
import Idealize.ShloMosaic.Lib.ValueIdx
import Idealize.ShloMosaic.Lib.ValueLayout
import Idealize.ShloMosaic.Lib.Pipeline.Value
import Idealize.ShloMosaic.PureOps.Ideal.Laws
import proofs.«145422_j10677288698373_2_alg».proof.Proof.RefValueA

noncomputable section

namespace Cert.ReferenceIdeal.RefValue

open Idealize.ShloMosaic Idealize.ShloMosaic.ValueIdx Cert.ReferenceIdeal Cert.ReferenceIdeal.Gen Cert.ReferenceIdeal.Read Cert.EdgeNode

variable (x0 : (⟨S192x64, .f32⟩ : BufTy).Contents (Elt Ideal)) (x1 : (⟨S64, .f32⟩ : BufTy).Contents (Elt Ideal))
  (x2 : (⟨S64x64, .f32⟩ : BufTy).Contents (Elt Ideal)) (x3 : (⟨S64, .f32⟩ : BufTy).Contents (Elt Ideal))
  (x4 : (⟨S192x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S9x64, .f32⟩ : BufTy).Contents (Elt Ideal))
  (x18 : (⟨S50000x64, .f32⟩ : BufTy).Contents (Elt Ideal)) (x19 : (⟨S500000x64, .f32⟩ : BufTy).Contents (Elt Ideal))
  (x20 : (⟨S500000x9, .f32⟩ : BufTy).Contents (Elt Ideal)) (x21 x22 : (⟨S500000, .i32⟩ : BufTy).Contents (Elt Ideal))

local notation "VI" => val_main_v6 (F := Ideal) x18 x21
local notation "VJ" => val_main_v13 (F := Ideal) x18 x22
local notation "Pe" => layerOfVecs x0 x1 x2 x3 x4 x5 x6 x7 x8

/-- Two rank-2 indices with the same two coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

/-! ### The value branch -/

theorem v18_at (e : Fin 500000) (c : Fin 64) :
    val_main_v18 (F := Ideal) x0 x1 x18 x19 x21 x22 (ix2 e c)
      = dense3 x0 (fun c => x1 (ix1 c)) (row VI e) (row VJ e) (row x19 e) c := by
  rw [val_main_v18_apply, val_main_v15_apply, val_main_v17_apply, val_main_v16_apply]
  exact dense3_stage x0 x1 VI VJ x19 concatenates_S500000x64_S500000x64_S500000x64_S500000x192_d1 e c
    (lidx_main_v15 (ix2 e c)) (ridx_main_v15 (ix2 e c)) (idx_main_v16 (idx_main_v17 (ix2 e c)))
    (fun k => by idx2) (fun k => by idx2) (by idx1)

theorem v19_at (i : S500000x64.Idx) :
    val_main_v19 (F := Ideal) x0 x1 x18 x19 x21 x22 i = silu (val_main_v18 (F := Ideal) x0 x1 x18 x19 x21 x22 i) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply]
  exact silu_pt _

theorem v23_at (e : Fin 500000) (c : Fin 64) :
    val_main_v23 (F := Ideal) x0 x1 x2 x3 x18 x19 x21 x22 (ix2 e c)
      = dense x2 (fun c => x3 (ix1 c))
          (fun k => silu (dense3 x0 (fun c => x1 (ix1 c)) (row VI e) (row VJ e) (row x19 e) k)) c := by
  rw [val_main_v23_apply, val_main_v20_apply, val_main_v22_apply, val_main_v21_apply]
  exact dense_stage x2 x3 (val_main_v19 (F := Ideal) x0 x1 x18 x19 x21 x22) _ e c
    (lidx_main_v20 (ix2 e c)) (ridx_main_v20 (ix2 e c)) (idx_main_v21 (idx_main_v22 (ix2 e c)))
    (fun k => by idx2) (fun k => by idx2) (by idx1) (fun k => by rw [v19_at, v18_at])

theorem v24_at (i : S500000x64.Idx) :
    val_main_v24 (F := Ideal) x0 x1 x2 x3 x18 x19 x21 x22 i
      = silu (val_main_v23 (F := Ideal) x0 x1 x2 x3 x18 x19 x21 x22 i) := by
  rw [val_main_v24_apply, val_main_call1_v5_apply, val_main_call1_v4_apply, val_main_call1_cst_0_apply,
    val_main_call1_v3_apply, val_main_call1_v2_apply, val_main_call1_cst_apply, val_main_call1_v1_apply,
    val_main_call1_v0_apply]
  exact silu_pt _

/-! ### The gate branch -/

theorem v28_at (e : Fin 500000) (c : Fin 64) :
    val_main_v28 (F := Ideal) x4 x5 x18 x19 x21 x22 (ix2 e c)
      = dense3 x4 (fun c => x5 (ix1 c)) (row VI e) (row VJ e) (row x19 e) c := by
  rw [val_main_v28_apply, val_main_v25_apply, val_main_v27_apply, val_main_v26_apply]
  exact dense3_stage x4 x5 VI VJ x19 concatenates_S500000x64_S500000x64_S500000x64_S500000x192_d1 e c
    (lidx_main_v25 (ix2 e c)) (ridx_main_v25 (ix2 e c)) (idx_main_v26 (idx_main_v27 (ix2 e c)))
    (fun k => by idx2) (fun k => by idx2) (by idx1)

theorem v29_at (i : S500000x64.Idx) :
    val_main_v29 (F := Ideal) x4 x5 x18 x19 x21 x22 i = silu (val_main_v28 (F := Ideal) x4 x5 x18 x19 x21 x22 i) := by
  rw [val_main_v29_apply, val_main_call2_v5_apply, val_main_call2_v4_apply, val_main_call2_cst_0_apply,
    val_main_call2_v3_apply, val_main_call2_v2_apply, val_main_call2_cst_apply, val_main_call2_v1_apply,
    val_main_call2_v0_apply]
  exact silu_pt _

theorem v33_at (e : Fin 500000) (c : Fin 64) :
    val_main_v33 (F := Ideal) x4 x5 x6 x7 x18 x19 x21 x22 (ix2 e c)
      = dense x6 (fun c => x7 (ix1 c))
          (fun k => silu (dense3 x4 (fun c => x5 (ix1 c)) (row VI e) (row VJ e) (row x19 e) k)) c := by
  rw [val_main_v33_apply, val_main_v30_apply, val_main_v32_apply, val_main_v31_apply]
  exact dense_stage x6 x7 (val_main_v29 (F := Ideal) x4 x5 x18 x19 x21 x22) _ e c
    (lidx_main_v30 (ix2 e c)) (ridx_main_v30 (ix2 e c)) (idx_main_v31 (idx_main_v32 (ix2 e c)))
    (fun k => by idx2) (fun k => by idx2) (by idx1) (fun k => by rw [v29_at, v28_at])

theorem v39_at (i : S500000x64.Idx) :
    val_main_v39 (F := Ideal) x4 x5 x6 x7 x18 x19 x21 x22 i
      = Ideal.logistic (val_main_v33 (F := Ideal) x4 x5 x6 x7 x18 x19 x21 x22 i) := by
  rw [val_main_v39_apply, val_main_v38_apply, val_main_cst_3_apply, val_main_v37_apply, val_main_v36_apply,
    val_main_cst_apply, val_main_v35_apply, val_main_v34_apply]
  exact sigm_pt _

/-! ### The radial product and the updated edge features -/

theorem v41_at (e : Fin 500000) (c : Fin 64) :
    val_main_v41 (F := Ideal) x8 x20 (ix2 e c) = radial x8 (row x20 e) c := by
  rw [val_main_v41_apply]
  exact radial_stage x8 x20 e c (lidx_main_v41 (ix2 e c)) (ridx_main_v41 (ix2 e c)) (fun k => by idx2) (fun k => by idx2)

theorem v43_at (e : Fin 500000) (c : Fin 64) :
    val_main_v43 (F := Ideal) x0 x1 x2 x3 x4 x5 x6 x7 x8 x18 x19 x20 x21 x22 (ix2 e c)
      = edgeRow Pe (row VI e) (row VJ e) (row x19 e) (row x20 e) c := by
  rw [val_main_v43_apply, val_main_v42_apply, val_main_v40_apply, v24_at, v23_at, v39_at, v33_at, v41_at]
  rfl

end Cert.ReferenceIdeal.RefValue

end
-- ==== Proof.RefValueC.lean ====
/-
  The message of the reference program, stage by stage at one index (e, c): the same gated block as the edge update,
  with the node block's parameters and with the UPDATED edge features as the third piece of the joined row.
-/
import proofs.«145422_j10677288698373_2_alg».proof.Proof.Gen.ReferenceIdeal.Run
import proofs.«145422_j10677288698373_2_alg».proof.Proof.Gen.ReferenceIdeal.Read
import proofs.«145422_j10677288698373_2_alg».proof.Proof.Spec
import proofs.«145422_j10677288698373_2_alg».proof.Proof.LibThreePieces
import Idealize.ShloMosaic.Lib.ValueIdx
import Idealize.ShloMosaic.Lib.ValueLayout
import Idealize.ShloMosaic.Lib.Pipeline.Value
import Idealize.ShloMosaic.PureOps.Ideal.Laws
import proofs.«145422_j10677288698373_2_alg».proof.Proof.RefValueA
import proofs.«145422_j10677288698373_2_alg».proof.Proof.RefValueB

noncomputable section

namespace Cert.ReferenceIdeal.RefValue

open Idealize.ShloMosaic Idealize.ShloMosaic.ValueIdx Cert.ReferenceIdeal Cert.ReferenceIdeal.Gen Cert.ReferenceIdeal.Read Cert.EdgeNode

variable (x0 : (⟨S192x64, .f32⟩ : BufTy).Contents (Elt Ideal)) (x1 : (⟨S64, .f32⟩ : BufTy).Contents (Elt Ideal))
  (x2 : (⟨S64x64, .f32⟩ : BufTy).Contents (Elt Ideal)) (x3 : (⟨S64, .f32⟩ : BufTy).Contents (Elt Ideal))
  (x4 : (⟨S192x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S9x64, .f32⟩ : BufTy).Contents (Elt Ideal))
  (x9 : (⟨S192x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S192x64, .f32⟩ : BufTy).Contents (Elt Ideal)) (x14 : (⟨S64, .f32⟩ : BufTy).Contents (Elt Ideal))
  (x15 : (⟨S64x64, .f32⟩ : BufTy).Contents (Elt Ideal)) (x16 : (⟨S64, .f32⟩ : BufTy).Contents (Elt Ideal))
  (x17 : (⟨S9x64, .f32⟩ : BufTy).Contents (Elt Ideal))
  (x18 : (⟨S50000x64, .f32⟩ : BufTy).Contents (Elt Ideal)) (x19 : (⟨S500000x64, .f32⟩ : BufTy).Contents (Elt Ideal))
  (x20 : (⟨S500000x9, .f32⟩ : BufTy).Contents (Elt Ideal)) (x21 x22 : (⟨S500000, .i32⟩ : BufTy).Contents (Elt Ideal))

local notation "VI" => val_main_v6 (F := Ideal) x18 x21
local notation "VJ" => val_main_v13 (F := Ideal) x18 x22
local notation "Pe" => layerOfVecs x0 x1 x2 x3 x4 x5 x6 x7 x8
local notation "Pn" => layerOfVecs x9 x10 x11 x12 x13 x14 x15 x16 x17
local notation "V43" => val_main_v43 (F := Ideal) x0 x1 x2 x3 x4 x5 x6 x7 x8 x18 x19 x20 x21 x22
local notation "V48" => val_main_v48 (F := Ideal) x0 x1 x2 x3 x4 x5 x6 x7 x8 x9 x10 x18 x19 x20 x21 x22
local notation "V49" => val_main_v49 (F := Ideal) x0 x1 x2 x3 x4 x5 x6 x7 x8 x9 x10 x18 x19 x20 x21 x22
local notation "V53" => val_main_v53 (F := Ideal) x0 x1 x2 x3 x4 x5 x6 x7 x8 x9 x10 x11 x12 x18 x19 x20 x21 x22
local notation "V54" => val_main_v54 (F := Ideal) x0 x1 x2 x3 x4 x5 x6 x7 x8 x9 x10 x11 x12 x18 x19 x20 x21 x22
local notation "V58" => val_main_v58 (F := Ideal) x0 x1 x2 x3 x4 x5 x6 x7 x8 x13 x14 x18 x19 x20 x21 x22
local notation "V59" => val_main_v59 (F := Ideal) x0 x1 x2 x3 x4 x5 x6 x7 x8 x13 x14 x18 x19 x20 x21 x22
local notation "V63" => val_main_v63 (F := Ideal) x0 x1 x2 x3 x4 x5 x6 x7 x8 x13 x14 x15 x16 x18 x19 x20 x21 x22
local notation "V69" => val_main_v69 (F := Ideal) x0 x1 x2 x3 x4 x5 x6 x7 x8 x13 x14 x15 x16 x18 x19 x20 x21 x22

/-- Two rank-2 indices with the same two coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

/-- Row e of the updated edge features. -/
theorem v43_row (e : Fin 500000) :
    row V43 e = edgeRow Pe (row VI e) (row VJ e) (row x19 e) (row x20 e) :=
  funext fun k => v43_at x0 x1 x2 x3 x4 x5 x6 x7 x8 x18 x19 x20 x21 x22 e k

/-! ### The value branch -/

theorem v48_at (e : Fin 500000) (c : Fin 64) :
    V48 (ix2 e c) = dense3 x9 (fun c => x10 (ix1 c)) (row VI e) (row VJ e)
        (edgeRow Pe (row VI e) (row VJ e) (row x19 e) (row x20 e)) c := by
  rw [← v43_row, val_main_v48_apply, val_main_v45_apply, val_main_v47_apply, val_main_v46_apply]
  exact dense3_stage x9 x10 VI VJ V43 concatenates_S500000x64_S500000x64_S500000x64_S500000x192_d1 e c
    (lidx_main_v45 (ix2 e c)) (ridx_main_v45 (ix2 e c)) (idx_main_v46 (idx_main_v47 (ix2 e c)))
    (fun k => by idx2) (fun k => by idx2) (by idx1)

theorem v49_at (i : S500000x64.Idx) : V49 i = silu (V48 i) := by
  rw [val_main_v49_apply, val_main_call3_v5_apply, val_main_call3_v4_apply, val_main_call3_cst_0_apply,
    val_main_call3_v3_apply, val_main_call3_v2_apply, val_main_call3_cst_apply, val_main_call3_v1_apply,
    val_main_call3_v0_apply]
  exact silu_pt _

theorem v53_at (e : Fin 500000) (c : Fin 64) :
    V53 (ix2 e c) = dense x11 (fun c => x12 (ix1 c))
        (fun k => silu (dense3 x9 (fun c => x10 (ix1 c)) (row VI e) (row VJ e)
          (edgeRow Pe (row VI e) (row VJ e) (row x19 e) (row x20 e)) k)) c := by
  rw [val_main_v53_apply, val_main_v50_apply, val_main_v52_apply, val_main_v51_apply]
  exact dense_stage x11 x12 V49 _ e c
    (lidx_main_v50 (ix2 e c)) (ridx_main_v50 (ix2 e c)) (idx_main_v51 (idx_main_v52 (ix2 e c)))
    (fun k => by idx2) (fun k => by idx2) (by idx1) (fun k => by rw [v49_at, v48_at])

theorem v54_at (i : S500000x64.Idx) : V54 i = silu (V53 i) := by
  rw [val_main_v54_apply, val_main_call4_v5_apply, val_main_call4_v4_apply, val_main_call4_cst_0_apply,
    val_main_call4_v3_apply, val_main_call4_v2_apply, val_main_call4_cst_apply, val_main_call4_v1_apply,
    val_main_call4_v0_apply]
  exact silu_pt _

/-! ### The gate branch -/

theorem v58_at (e : Fin 500000) (c : Fin 64) :
    V58 (ix2 e c) = dense3 x13 (fun c => x14 (ix1 c)) (row VI e) (row VJ e)
        (edgeRow Pe (row VI e) (row VJ e) (row x19 e) (row x20 e)) c := by
  rw [← v43_row, val_main_v58_apply, val_main_v55_apply, val_main_v57_apply, val_main_v56_apply]
  exact dense3_stage x13 x14 VI VJ V43 concatenates_S500000x64_S500000x64_S500000x64_S500000x192_d1 e c
    (lidx_main_v55 (ix2 e c)) (ridx_main_v55 (ix2 e c)) (idx_main_v56 (idx_main_v57 (ix2 e c)))
    (fun k => by idx2) (fun k => by idx2) (by idx1)

theorem v59_at (i : S500000x64.Idx) : V59 i = silu (V58 i) := by
  rw [val_main_v59_apply, val_main_call5_v5_apply, val_main_call5_v4_apply, val_main_call5_cst_0_apply,
    val_main_call5_v3_apply, val_main_call5_v2_apply, val_main_call5_cst_apply, val_main_call5_v1_apply,
    val_main_call5_v0_apply]
  exact silu_pt _

theorem v63_at (e : Fin 500000) (c : Fin 64) :
    V63 (ix2 e c) = dense x15 (fun c => x16 (ix1 c))
        (fun k => silu (dense3 x13 (fun c => x14 (ix1 c)) (row VI e) (row VJ e)
          (edgeRow Pe (row VI e) (row VJ e) (row x19 e) (row x20 e)) k)) c := by
  rw [val_main_v63_apply, val_main_v60_apply, val_main_v62_apply, val_main_v61_apply]
  exact dense_stage x15 x16 V59 _ e c
    (lidx_main_v60 (ix2 e c)) (ridx_main_v60 (ix2 e c)) (idx_main_v61 (idx_main_v62 (ix2 e c)))
    (fun k => by idx2) (fun k => by idx2) (by idx1) (fun k => by rw [v59_at, v58_at])

theorem v69_at (i : S500000x64.Idx) : V69 i = Ideal.logistic (V63 i) := by
  rw [val_main_v69_apply, val_main_v68_apply, val_main_cst_5_apply, val_main_v67_apply, val_main_v66_apply,
    val_main_cst_4_apply, val_main_v65_apply, val_main_v64_apply]
  exact sigm_pt _

/-! ### The radial product and the message -/

theorem v71_at (e : Fin 500000) (c : Fin 64) :
    val_main_v71 (F := Ideal) x17 x20 (ix2 e c) = radial x17 (row x20 e) c := by
  rw [val_main_v71_apply]
  exact radial_stage x17 x20 e c (lidx_main_v71 (ix2 e c)) (ridx_main_v71 (ix2 e c)) (fun k => by idx2) (fun k => by idx2)

theorem v72_at (e : Fin 500000) (c : Fin 64) :
    val_main_v72 (F := Ideal) x0 x1 x2 x3 x4 x5 x6 x7 x8 x9 x10 x11 x12 x13 x14 x15 x16 x17 x18 x19 x20 x21 x22 (ix2 e c)
      = messRow Pe Pn (row VI e) (row VJ e) (row x19 e) (row x20 e) c := by
  rw [val_main_v72_apply, val_main_v70_apply, v54_at, v53_at, v69_at, v63_at, v71_at]
  rfl

end Cert.ReferenceIdeal.RefValue

end
-- ==== Proof.RefValue.lean ====
/-
  The reference program's two values as the functions of the shared specification: its first result is the updated
  edge features of every edge, and the value it scatters afterwards is the message of every edge.
-/
import proofs.«145422_j10677288698373_2_alg».proof.Proof.Gen.ReferenceIdeal.Run
import proofs.«145422_j10677288698373_2_alg».proof.Proof.Gen.ReferenceIdeal.Read
import proofs.«145422_j10677288698373_2_alg».proof.Proof.Spec
import proofs.«145422_j10677288698373_2_alg».proof.Proof.LibThreePieces
import Idealize.ShloMosaic.Lib.ValueIdx
import Idealize.ShloMosaic.Lib.ValueLayout
import Idealize.ShloMosaic.Lib.Pipeline.Value
import Idealize.ShloMosaic.PureOps.Ideal.Laws
import proofs.«145422_j10677288698373_2_alg».proof.Proof.RefValueB
import proofs.«145422_j10677288698373_2_alg».proof.Proof.RefValueC

noncomputable section

namespace Cert.ReferenceIdeal.RefValue

open Idealize.ShloMosaic Idealize.ShloMosaic.ValueIdx Cert.ReferenceIdeal Cert.ReferenceIdeal.Read Cert.EdgeNode

variable (x0 : (⟨S192x64, .f32⟩ : BufTy).Contents (Elt Ideal)) (x1 : (⟨S64, .f32⟩ : BufTy).Contents (Elt Ideal))
  (x2 : (⟨S64x64, .f32⟩ : BufTy).Contents (Elt Ideal)) (x3 : (⟨S64, .f32⟩ : BufTy).Contents (Elt Ideal))
  (x4 : (⟨S192x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S9x64, .f32⟩ : BufTy).Contents (Elt Ideal))
  (x9 : (⟨S192x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S192x64, .f32⟩ : BufTy).Contents (Elt Ideal)) (x14 : (⟨S64, .f32⟩ : BufTy).Contents (Elt Ideal))
  (x15 : (⟨S64x64, .f32⟩ : BufTy).Contents (Elt Ideal)) (x16 : (⟨S64, .f32⟩ : BufTy).Contents (Elt Ideal))
  (x17 : (⟨S9x64, .f32⟩ : BufTy).Contents (Elt Ideal))
  (x18 : (⟨S50000x64, .f32⟩ : BufTy).Contents (Elt Ideal)) (x19 : (⟨S500000x64, .f32⟩ : BufTy).Contents (Elt Ideal))
  (x20 : (⟨S500000x9, .f32⟩ : BufTy).Contents (Elt Ideal)) (x21 x22 : (⟨S500000, .i32⟩ : BufTy).Contents (Elt Ideal))

/-- The reference's first result is the updated edge features of the specification. -/
theorem ref_edge :
    val_main_v43 (F := Ideal) x0 x1 x2 x3 x4 x5 x6 x7 x8 x18 x19 x20 x21 x22
      = edgeArr (layerOfVecs x0 x1 x2 x3 x4 x5 x6 x7 x8) (val_main_v6 (F := Ideal) x18 x21) (val_main_v13 (F := Ideal) x18 x22) x19 x20 := by
  funext i
  obtain ⟨e, c, rfl⟩ : ∃ (e : Fin 500000) (c : Fin 64), i = ix2 e c := ⟨i 0, i 1, eq_ix2 i⟩
  rw [v43_at, edgeArr_apply]

/-- The value the reference scatters is the messages of the specification. -/
theorem ref_mess :
    val_main_v72 (F := Ideal) x0 x1 x2 x3 x4 x5 x6 x7 x8 x9 x10 x11 x12 x13 x14 x15 x16 x17 x18 x19 x20 x21 x22
      = messArr (layerOfVecs x0 x1 x2 x3 x4 x5 x6 x7 x8) (layerOfVecs x9 x10 x11 x12 x13 x14 x15 x16 x17)
          (val_main_v6 (F := Ideal) x18 x21) (val_main_v13 (F := Ideal) x18 x22) x19 x20 := by
  funext i
  obtain ⟨e, c, rfl⟩ : ∃ (e : Fin 500000) (c : Fin 64), i = ix2 e c := ⟨i 0, i 1, eq_ix2 i⟩
  rw [v72_at, messArr_apply]

end Cert.ReferenceIdeal.RefValue

end
-- ==== Proof.BridgeKernel.lean ====
/-
  The kernel program's two arrays as the specification's functions of the program's ARGUMENTS.

  The parameter arrays reach the region through a change of float format (the identity on the extended reals) and,
  for each bias, a reshape of the vector [64] to one row [1, 64]; the endpoint features are rows of the node features
  gathered at the source and destination indices; the edge features and the radial basis are arguments as they are.
-/
import proofs.«145422_j10677288698373_2_alg».proof.Proof.Spec
import proofs.«145422_j10677288698373_2_alg».proof.Proof.KernelArray

set_option maxRecDepth 16384

noncomputable section

namespace Cert.Bridge

open Idealize.ShloMosaic Idealize.ShloMosaic.TcCoe Idealize.ShloMosaic.ValueIdx Idealize.SL.Sem
open Cert.EdgeNode

/-- A block's parameters held as matrices and one-row biases that are reshapes of bias vectors. -/
theorem layerOfRows_cast (w0 : Mat 192 64) (b0 : (⟨1, ![64]⟩ : Shape).Idx → EReal) (w1 : Mat 64 64) (b1 : (⟨1, ![64]⟩ : Shape).Idx → EReal)
    (g0 : Mat 192 64) (c0 : (⟨1, ![64]⟩ : Shape).Idx → EReal) (g1 : Mat 64 64) (c1 : (⟨1, ![64]⟩ : Shape).Idx → EReal) (wr : Mat 9 64)
    (h : (⟨1, ![64]⟩ : Shape).ShapeCasts ⟨2, ![1, 64]⟩) :
    layerOfRows w0 (shapeCast ⟨2, ![1, 64]⟩ b0 h) w1 (shapeCast ⟨2, ![1, 64]⟩ b1 h) g0 (shapeCast ⟨2, ![1, 64]⟩ c0 h)
      g1 (shapeCast ⟨2, ![1, 64]⟩ c1 h) wr = layerOfVecs w0 b0 w1 b1 g0 c0 g1 c1 wr := by
  unfold layerOfRows layerOfVecs
  simp only [shapeCast_a_1a_apply]

section Kernel
open Cert.KernelIdeal Cert.KernelIdeal.Gen Cert.KernelIdeal.Windows Cert.KernelIdeal.Packed

variable (m : (ℓ : Loc Cert.KernelIdeal.nD Cert.KernelIdeal.τ Cert.KernelIdeal.sig) → Buf (Elt Ideal) ℓ)

theorem edgeParams_eq (c : Dev Cert.KernelIdeal.nD) : edgeParams m c = layerOfVecs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  unfold edgeParams
  rw [V_v14 m c, V_v24 m c, V_v15 m c, V_v25 m c, V_v16 m c, V_v26 m c, V_v17 m c, V_v27 m c, V_v18 m c]
  exact layerOfRows_cast _ _ _ _ _ _ _ _ _ _

theorem nodeParams_eq (c : Dev Cert.KernelIdeal.nD) : nodeParams m c = layerOfVecs (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  unfold nodeParams
  rw [V_v19 m c, V_v28 m c, V_v20 m c, V_v29 m c, V_v21 m c, V_v30 m c, V_v22 m c, V_v31 m c, V_v23 m c]
  exact layerOfRows_cast _ _ _ _ _ _ _ _ _ _

/-- The kernel program's first result as the specification's function of the ARGUMENTS. -/
theorem edgeOut_eq (c : Dev Cert.KernelIdeal.nD) : edgeOut m c
    = edgeArr (layerOfVecs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (gatherRows (m ((c.tc : Thread Cert.KernelIdeal.nD Cert.KernelIdeal.τ).loc Cert.KernelIdeal.main_arg18)) (m ((c.tc : Thread Cert.KernelIdeal.nD Cert.KernelIdeal.τ).loc Cert.KernelIdeal.main_arg21))) (gatherRows (m ((c.tc : Thread Cert.KernelIdeal.nD Cert.KernelIdeal.τ).loc Cert.KernelIdeal.main_arg18)) (m ((c.tc : Thread Cert.KernelIdeal.nD Cert.KernelIdeal.τ).loc Cert.KernelIdeal.main_arg22))) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  unfold edgeOut
  rw [edgeParams_eq m c, V_v6 m c, V_v13 m c, V_main_arg19 m c, V_main_arg20 m c]

theorem messOut_eq (c : Dev Cert.KernelIdeal.nD) : messOut m c
    = messArr (layerOfVecs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (layerOfVecs (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (gatherRows (m ((c.tc : Thread Cert.KernelIdeal.nD Cert.KernelIdeal.τ).loc Cert.KernelIdeal.main_arg18)) (m ((c.tc : Thread Cert.KernelIdeal.nD Cert.KernelIdeal.τ).loc Cert.KernelIdeal.main_arg21))) (gatherRows (m ((c.tc : Thread Cert.KernelIdeal.nD Cert.KernelIdeal.τ).loc Cert.KernelIdeal.main_arg18)) (m ((c.tc : Thread Cert.KernelIdeal.nD Cert.KernelIdeal.τ).loc Cert.KernelIdeal.main_arg22))) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  unfold messOut
  rw [edgeParams_eq m c, nodeParams_eq m c, V_v6 m c, V_v13 m c, V_main_arg19 m c, V_main_arg20 m c]

end Kernel

end Cert.Bridge

end
-- ==== Proof.BridgeReference.lean ====
/-
  The reference gathers the endpoint features with the very host operations the kernel program uses: the two
  programs' gathers are one function of the node features and the index vector.
-/
import proofs.«145422_j10677288698373_2_alg».proof.Proof.KernelWindows
import proofs.«145422_j10677288698373_2_alg».proof.Proof.Gen.ReferenceIdeal.Read

set_option maxRecDepth 16384

noncomputable section

namespace Cert.Bridge

open Idealize.ShloMosaic Idealize.ShloMosaic.TcCoe Idealize.ShloMosaic.ValueIdx Idealize.SL.Sem

section Reference
open Cert.ReferenceIdeal Cert.ReferenceIdeal.Read

/-- The reference gathers the endpoint features with the same host operations as the kernel program. -/
theorem ref_gather_src (x18 : (⟨Cert.ReferenceIdeal.S50000x64, .f32⟩ : BufTy).Contents (Elt Ideal)) (x21 : (⟨Cert.ReferenceIdeal.S500000, .i32⟩ : BufTy).Contents (Elt Ideal)) :
    val_main_v6 (F := Ideal) x18 x21 = Cert.KernelIdeal.Windows.gatherRows x18 x21 := by
  unfold val_main_v6 val_main_v5 val_main_v4 val_main_v3 val_main_v2 val_main_v1 val_main_v0 val_main_c val_main_c_0
    Cert.KernelIdeal.Windows.gatherRows
  rfl

theorem ref_gather_dst (x18 : (⟨Cert.ReferenceIdeal.S50000x64, .f32⟩ : BufTy).Contents (Elt Ideal)) (x22 : (⟨Cert.ReferenceIdeal.S500000, .i32⟩ : BufTy).Contents (Elt Ideal)) :
    val_main_v13 (F := Ideal) x18 x22 = Cert.KernelIdeal.Windows.gatherRows x18 x22 := by
  unfold val_main_v13 val_main_v12 val_main_v11 val_main_v10 val_main_v9 val_main_v8 val_main_v7 val_main_c_1 val_main_c_2
    Cert.KernelIdeal.Windows.gatherRows
  rfl

end Reference

end Cert.Bridge

end
-- ==== Proof.lean ====
/-
  The proof of the certificate's claim: the three frames, the (empty) idealization ledger, and the equality of the
  kernel program and the reference at the ideal instance.

  The kernel is one gated graph-convolution step: for every edge e with endpoint features vi = node_feat[src e],
  vj = node_feat[dst e], edge features ef and radial basis rbf it computes
      edge_out = ef + GatedMLP_e([vi | vj | ef]) · (rbf · We),      mess = GatedMLP_n([vi | vj | edge_out]) · (rbf · Wn),
  and then node_out = node_feat + Σ_{e : dst e = n} mess e.  The Pallas kernel handles 4000 edges per grid point and
  multiplies the three 64-wide pieces of the joined row by the three 64-row slices of each 192 × 64 weight; the
  reference joins the row and multiplies once.  On the extended reals the two agree by associativity of addition
  alone (Spec.dense3_of_joined); every other operation is the same on both sides, element by element, and the final
  scatter-add is the same host operation applied to equal arrays.
-/
import proofs.«145422_j10677288698373_2_alg».proof.Defs
import proofs.«145422_j10677288698373_2_alg».proof.Proof.Gen.Kernel
import proofs.«145422_j10677288698373_2_alg».proof.Proof.Gen.Kernel.Frame
import proofs.«145422_j10677288698373_2_alg».proof.Proof.Gen.KernelIdeal
import proofs.«145422_j10677288698373_2_alg».proof.Proof.Gen.KernelIdeal.Frame
import proofs.«145422_j10677288698373_2_alg».proof.Proof.Gen.ReferenceIdeal
import proofs.«145422_j10677288698373_2_alg».proof.Proof.Gen.ReferenceIdeal.Run
import proofs.«145422_j10677288698373_2_alg».proof.Proof.Gen.ReferenceIdeal.Read
import proofs.«145422_j10677288698373_2_alg».proof.Proof.Gen.Pre_finite_inputs
import proofs.«145422_j10677288698373_2_alg».proof.Proof.KernelRun
import proofs.«145422_j10677288698373_2_alg».proof.Proof.RefValue
import proofs.«145422_j10677288698373_2_alg».proof.Proof.BridgeKernel
import proofs.«145422_j10677288698373_2_alg».proof.Proof.BridgeReference
import Idealize.ShloMosaic.Adequacy
import Idealize.ShloMosaic.Init

set_option maxRecDepth 16384

noncomputable section

namespace Cert.Proof

open Idealize.ShloMosaic Idealize.ShloMosaic.TcCoe Idealize.SL.Sem Cert.EdgeNode

namespace Parts

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The reference's second result: the same aggregation of ITS messages. -/
theorem ref_node (x0 : (⟨Cert.ReferenceIdeal.S192x64, .f32⟩ : BufTy).Contents (Elt Ideal)) (x1 : (⟨Cert.ReferenceIdeal.S64, .f32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S192x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S9x64, .f32⟩ : BufTy).Contents (Elt Ideal))
    (x9 : (⟨Cert.ReferenceIdeal.S192x64, .f32⟩ : BufTy).Contents (Elt Ideal)) (x10 : (⟨Cert.ReferenceIdeal.S64, .f32⟩ : BufTy).Contents (Elt Ideal))
    (x11 : (⟨Cert.ReferenceIdeal.S64x64, .f32⟩ : BufTy).Contents (Elt Ideal)) (x12 : (⟨Cert.ReferenceIdeal.S64, .f32⟩ : BufTy).Contents (Elt Ideal))
    (x13 : (⟨Cert.ReferenceIdeal.S192x64, .f32⟩ : BufTy).Contents (Elt Ideal)) (x14 : (⟨Cert.ReferenceIdeal.S64, .f32⟩ : BufTy).Contents (Elt Ideal))
    (x15 : (⟨Cert.ReferenceIdeal.S64x64, .f32⟩ : BufTy).Contents (Elt Ideal)) (x16 : (⟨Cert.ReferenceIdeal.S64, .f32⟩ : BufTy).Contents (Elt Ideal))
    (x17 : (⟨Cert.ReferenceIdeal.S9x64, .f32⟩ : BufTy).Contents (Elt Ideal))
    (x18 : (⟨Cert.ReferenceIdeal.S50000x64, .f32⟩ : BufTy).Contents (Elt Ideal)) (x19 : (⟨Cert.ReferenceIdeal.S500000x64, .f32⟩ : BufTy).Contents (Elt Ideal))
    (x20 : (⟨Cert.ReferenceIdeal.S500000x9, .f32⟩ : BufTy).Contents (Elt Ideal)) (x21 x22 : (⟨Cert.ReferenceIdeal.S500000, .i32⟩ : BufTy).Contents (Elt Ideal)) :
    Cert.ReferenceIdeal.Read.val_main_v76 (F := Ideal) x0 x1 x2 x3 x4 x5 x6 x7 x8 x9 x10 x11 x12 x13 x14 x15 x16 x17 x18 x19 x20 x21 x22
      = Cert.KernelIdeal.Packed.aggregate x18 x22
          (Cert.ReferenceIdeal.Read.val_main_v72 (F := Ideal) x0 x1 x2 x3 x4 x5 x6 x7 x8 x9 x10 x11 x12 x13 x14 x15 x16 x17 x18 x19 x20 x21 x22) := by
  unfold Cert.ReferenceIdeal.Read.val_main_v76 Cert.ReferenceIdeal.Read.val_main_v75 Cert.ReferenceIdeal.Read.val_main_v74
    Cert.ReferenceIdeal.Read.val_main_v73 Cert.ReferenceIdeal.Read.val_main_cst_6 Cert.KernelIdeal.Packed.aggregate
  rfl

/-- At the ideal instance both programs, run from memories agreeing on the arguments, end with the same two arrays. -/
theorem algebraic : Cert.algebraic_KernelIdeal_ReferenceIdeal := by
  intro m ρ m' ρ' _ hagree
  refine ⟨fun c => Cert.KernelIdeal.Packed.edgeOut m c,
    fun c => Cert.KernelIdeal.Packed.aggregate (m ((c.tc : Thread Cert.KernelIdeal.nD Cert.KernelIdeal.τ).loc Cert.KernelIdeal.main_arg18)) (m ((c.tc : Thread Cert.KernelIdeal.nD Cert.KernelIdeal.τ).loc Cert.KernelIdeal.main_arg22)) (Cert.KernelIdeal.Packed.messOut m c),
    Cert.KernelIdeal.Packed.run m ρ, ?_⟩
  refine (θ_run Cert.ReferenceIdeal.defs _ _).mono (fun r h c => ?_) (Cert.ReferenceIdeal.Value.run (F := Ideal) m' ρ')
  obtain ⟨h43, h76, hrest⟩ := h c
  obtain ⟨a0, a1, a2, a3, a4, a5, a6, a7, a8, a9, a10, a11, a12, a13, a14, a15, a16, a17, a18, a19, a20, a21, a22⟩ := hagree c
  refine ⟨h43.trans ?_, h76.trans ?_, hrest⟩
  · rw [Cert.ReferenceIdeal.Read.val_main_v43_eq, Cert.ReferenceIdeal.RefValue.ref_edge, Cert.Bridge.ref_gather_src,
      Cert.Bridge.ref_gather_dst, a0, a1, a2, a3, a4, a5, a6, a7, a8, a18, a19, a20, a21, a22]
    exact (Cert.Bridge.edgeOut_eq m c).symm
  · rw [Cert.ReferenceIdeal.Read.val_main_v76_eq, ref_node, Cert.ReferenceIdeal.RefValue.ref_mess, Cert.Bridge.ref_gather_src,
      Cert.Bridge.ref_gather_dst, a0, a1, a2, a3, a4, a5, a6, a7, a8, a9, a10, a11, a12, a13, a14, a15, a16, a17, a18, a19, a20, a21, a22]
    exact congrArg _ (Cert.Bridge.messOut_eq m c).symm

end Parts

theorem claim : Cert.Claim := ⟨Cert.Kernel.Gen.facts, Cert.KernelIdeal.Gen.facts, Cert.ReferenceIdeal.Gen.facts, Cert.Pre_finite_inputs.Gen.facts,
  Parts.frame_kernel, Parts.frame_kernelIdeal, Parts.frame_reference, Parts.preserves, Parts.algebraic⟩

end Cert.Proof

end
